-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S256x40 : Shape := ⟨2, ![256, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg8 : FVec F S40 .f32) (main_v33 : IVec S_ 1) : IVec S_ 1 :=
  let main_v34 : FVec F S40 .f32 := Host.absf main_arg8
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S256x40 .f32) (main_arg8 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x40 .f32 := Host.absf main_arg7
  let main_cst_10 : FVec F S_ .f32 := constant S_ .f32 0x7F800000#32
  let main_v30 : FVec F S256x40 .f32 := broadcastInDim S256x40 ![] bcast_S_S256x40 main_cst_10
  let main_v31 : IVec S256x40 1 := cmpf .olt main_v29 main_v30
  let main_c_11 : IVec S_ 1 := constantI S_ 1 1#1
  let main_v32 : IVec S_ 1 := (fun x v => Host.reduce IntOp.andi x v reducesTo_S256x40_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128 .f32) (main_arg7 : FVec F S256x40 .f32) (main_arg8 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S256x40 : Shape := ⟨2, ![256, 40]⟩
abbrev S40 : Shape := ⟨1, ![40]⟩
abbrev S1x1600000 : Shape := ⟨2, ![1, 1600000]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S4000x128 : Shape := ⟨2, ![4000, 128]⟩
abbrev S128x40 : Shape := ⟨2, ![128, 40]⟩
abbrev S1x40 : Shape := ⟨2, ![1, 40]⟩
abbrev S100000x40 : Shape := ⟨2, ![100000, 40]⟩
abbrev S4000x40 : Shape := ⟨2, ![4000, 40]⟩
abbrev S4000 : Shape := ⟨1, ![4000]⟩
abbrev S4000x1 : Shape := ⟨2, ![4000, 1]⟩

abbrev nBuf : Space → Nat
  | .hbm => 53
  | .vmem => 25
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x40, .f32⟩
  | .hbm, ⟨8, _⟩ => ⟨S40, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S1600000x1, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S1600000x128, .f32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S1600000x1, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S1600000x128, .f32⟩
  | .hbm, ⟨42, _⟩ => ⟨S1600000x128, .f32⟩
  | .hbm, ⟨43, _⟩ => ⟨S_, .f32⟩
  | .hbm, ⟨44, _⟩ => ⟨S100000x128, .f32⟩
  | .hbm, ⟨45, _⟩ => ⟨S1600000x1, .i32⟩
  | .hbm, ⟨46, _⟩ => ⟨S100000x128, .f32⟩
  | .hbm, ⟨47, _⟩ => ⟨S1x128, .f32⟩
  | .hbm, ⟨48, _⟩ => ⟨S100000x128, .f32⟩
  | .hbm, ⟨49, _⟩ => ⟨S128x40, .f32⟩
  | .hbm, ⟨50, _⟩ => ⟨S128x40, .f32⟩
  | .hbm, ⟨51, _⟩ => ⟨S1x40, .f32⟩
  | .hbm, ⟨52, _⟩ => ⟨S100000x40, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S4000x128, .f32⟩
  | .local _ .vmem, ⟨7, _⟩ => ⟨S4000x128, .f32⟩
  | .local _ .vmem, ⟨8, _⟩ => ⟨S4000x128, .f32⟩
  | .local _ .vmem, ⟨9, _⟩ => ⟨S4000x128, .f32⟩
  | .local _ .vmem, ⟨10, _⟩ => ⟨S4000x128, .f32⟩
  | .local _ .vmem, ⟨11, _⟩ => ⟨S4000x128, .f32⟩
  | .local _ .vmem, ⟨12, _⟩ => ⟨S128x128, .f32⟩
  | .local _ .vmem, ⟨13, _⟩ => ⟨S1x128, .f32⟩
  | .local _ .vmem, ⟨14, _⟩ => ⟨S4000x128, .f32⟩
  | .local _ .vmem, ⟨15, _⟩ => ⟨S4000x128, .f32⟩
  | .local _ .vmem, ⟨16, _⟩ => ⟨S4000x128, .f32⟩
  | .local _ .vmem, ⟨17, _⟩ => ⟨S4000x128, .f32⟩
  | .local _ .vmem, ⟨18, _⟩ => ⟨S4000x128, .f32⟩
  | .local _ .vmem, ⟨19, _⟩ => ⟨S4000x128, .f32⟩
  | .local _ .vmem, ⟨20, _⟩ => ⟨S128x40, .f32⟩
  | .local _ .vmem, ⟨21, _⟩ => ⟨S128x40, .f32⟩
  | .local _ .vmem, ⟨22, _⟩ => ⟨S1x40, .f32⟩
  | .local _ .vmem, ⟨23, _⟩ => ⟨S4000x40, .f32⟩
  | .local _ .vmem, ⟨24, _⟩ => ⟨S4000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_c_1 : Ref sig .tc := ⟨.hbm, 32, rfl⟩
abbrev main_v20 : Ref sig .tc := ⟨.hbm, 33, rfl⟩
abbrev main_v21 : Ref sig .tc := ⟨.hbm, 34, rfl⟩
abbrev main_c_2 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x40 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x40 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  slices_S256x40_S128x40_0_0 : S256x40.Slices ![0, 0] S128x40
  slices_S256x40_S128x40_128_0 : S256x40.Slices ![128, 0] S128x40
  shapeCasts_S40_S1x40 : S40.ShapeCasts S1x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4000x40 : S1x40.Broadcasts S4000x40
  reduces_S4000x40_S4000 : S4000x40.Reduces [1] S4000
  shapeCasts_S4000_S4000x1 : S4000.ShapeCasts S4000x1
  broadcasts_S4000x1_S4000x40 : S4000x1.Broadcasts S4000x40
  inb_S4000x40_S4000x40_0_0 : ∀ a, (![0, 0] : Fin 2 → Nat) a + S4000x40.size a ≤ S4000x40.size a
  h_S4000x40 : 0 < S4000x40.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  dot_S4000x128_S128x40_S4000x40_1_0_0_1_n_n_wf : DotDims.WF S4000x128 S128x40 S4000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x128.size a ≤ S100000x128.size a
  hwx0_4 : ∀ i : grid0.Coords, EltTy.bits .f32 = 32 ∨ (Rect.block (s := S100000x128) S4000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .f32 = 32 ∨ (Rect.block (s := S100000x128) S4000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .f32 = 32 ∨ (Rect.block (s := S100000x128) S4000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x128.size a ≤ S100000x128.size a
  hwx2_1 : ∀ i : grid2.Coords, EltTy.bits .f32 = 32 ∨ (Rect.block (s := S100000x128) S4000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x40.size a ≤ S128x40.size a
  hwx2_2 : ∀ i : grid2.Coords, EltTy.bits .f32 = 32 ∨ (Rect.block (s := S128x40) S128x40.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x40.size a ≤ S128x40.size a
  hwx2_3 : ∀ i : grid2.Coords, EltTy.bits .f32 = 32 ∨ (Rect.block (s := S128x40) S128x40.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x40.size a ≤ S1x40.size a
  hwx2_4 : ∀ i : grid2.Coords, EltTy.bits .f32 = 32 ∨ (Rect.block (s := S1x40) S1x40.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x40.size a ≤ S100000x40.size a
  hwx2_5 : ∀ i : grid2.Coords, EltTy.bits .f32 = 32 ∨ (Rect.block (s := S100000x40) S4000x40.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S4000x128_S128x40_S4000x40_1_0_0_1_n_n : DotDims S4000x128 S128x40 S4000x40 where
  lhsContracting := [1]
  rhsContracting := [0]
  lhsNonContracting := [0]
  rhsNonContracting := [1]
  lhsBatch := []
  rhsBatch := []
  wf := dot_S4000x128_S128x40_S4000x40_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S4000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v18) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v18) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v33) S4000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v34) S128x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S128x40.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v36) S1x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v37) S4000x40.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S256x40 : Shape := ⟨2, ![256, 40]⟩
abbrev S40 : Shape := ⟨1, ![40]⟩
abbrev S1x1600000 : Shape := ⟨2, ![1, 1600000]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S100000x256 : Shape := ⟨2, ![100000, 256]⟩
abbrev S100000x40 : Shape := ⟨2, ![100000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S256x40, .f32⟩
  | .hbm, ⟨8, _⟩ => ⟨S40, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S1600000x1, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S1600000x128, .f32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S100000x128, .f32⟩
  | .hbm, ⟨30, _⟩ => ⟨S100000x128, .f32⟩
  | .hbm, ⟨31, _⟩ => ⟨S1x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000x128, .f32⟩
  | .hbm, ⟨36, _⟩ => ⟨S100000x128, .f32⟩
  | .hbm, ⟨37, _⟩ => ⟨S1600000x1, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S1600000x128, .f32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S100000x128, .f32⟩
  | .hbm, ⟨54, _⟩ => ⟨S100000x128, .f32⟩
  | .hbm, ⟨55, _⟩ => ⟨S1x128, .f32⟩
  | .hbm, ⟨56, _⟩ => ⟨S100000x128, .f32⟩
  | .hbm, ⟨57, _⟩ => ⟨S100000x128, .f32⟩
  | .hbm, ⟨58, _⟩ => ⟨S_, .f32⟩
  | .hbm, ⟨59, _⟩ => ⟨S100000x128, .f32⟩
  | .hbm, ⟨60, _⟩ => ⟨S100000x128, .f32⟩
  | .hbm, ⟨61, _⟩ => ⟨S100000x256, .f32⟩
  | .hbm, ⟨62, _⟩ => ⟨S100000x40, .f32⟩
  | .hbm, ⟨63, _⟩ => ⟨S1x40, .f32⟩
  | .hbm, ⟨64, _⟩ => ⟨S100000x40, .f32⟩
  | .hbm, ⟨65, _⟩ => ⟨S100000x40, .f32⟩
  | .hbm, ⟨66, _⟩ => ⟨S_, .f32⟩
  | .hbm, ⟨67, _⟩ => ⟨S100000, .f32⟩
  | .hbm, ⟨68, _⟩ => ⟨S_, .f32⟩
  | .hbm, ⟨69, _⟩ => ⟨S100000, .f32⟩
  | .hbm, ⟨70, _⟩ => ⟨S100000, .f32⟩
  | .hbm, ⟨71, _⟩ => ⟨S100000x1, .f32⟩
  | .hbm, ⟨72, _⟩ => ⟨S100000x40, .f32⟩
  | .hbm, ⟨73, _⟩ => ⟨S100000x40, .f32⟩
  | .hbm, ⟨74, _⟩ => ⟨S100000x40, .f32⟩
  | .hbm, ⟨75, _⟩ => ⟨S_, .f32⟩
  | .hbm, ⟨76, _⟩ => ⟨S100000, .f32⟩
  | .hbm, ⟨77, _⟩ => ⟨S100000x1, .f32⟩
  | .hbm, ⟨78, _⟩ => ⟨S100000x1, .f32⟩
  | .hbm, ⟨79, _⟩ => ⟨S100000x40, .f32⟩
  | .hbm, ⟨80, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_call0_cst : Ref sig .tc := ⟨.hbm, 34, rfl⟩
abbrev main_call0_v0 : Ref sig .tc := ⟨.hbm, 35, rfl⟩
abbrev main_v22 : Ref sig .tc := ⟨.hbm, 36, rfl⟩
abbrev main_v23 : Ref sig .tc := ⟨.hbm, 37, rfl⟩
abbrev main_c_1 : Ref sig .tc := ⟨.hbm, 38, rfl⟩
abbrev main_v24 : Ref sig .tc := ⟨.hbm, 39, rfl⟩
abbrev main_v25 : Ref sig .tc := ⟨.hbm, 40, rfl⟩
abbrev main_c_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_3 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_call1_cst : Ref sig .tc := ⟨.hbm, 58, rfl⟩
abbrev main_call1_v0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call2_cst : Ref sig .tc := ⟨.hbm, 66, rfl⟩
abbrev main_call2_v0 : Ref sig .tc := ⟨.hbm, 67, rfl⟩
abbrev main_call2_cst_0 : Ref sig .tc := ⟨.hbm, 68, rfl⟩
abbrev main_call2_v1 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_v6 : Ref sig .tc := ⟨.hbm, 74, rfl⟩
abbrev main_call2_cst_1 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_v47 : Ref sig .tc := ⟨.hbm, 80, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  concatenates_S100000x128_S100000x128_S100000x256_d1 : Shape.Concatenates [S100000x128, S100000x128] S100000x256 1
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x256_S256x40_S100000x40_1_0_0_1_n_n_wf : DotDims.WF S100000x256 S256x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x256_S256x40_S100000x40_1_0_0_1_n_n : DotDims S100000x256 S256x40 S100000x40 where
  lhsContracting := [1]
  rhsContracting := [0]
  lhsNonContracting := [0]
  rhsNonContracting := [1]
  lhsBatch := []
  rhsBatch := []
  wf := dot_S100000x256_S256x40_S100000x40_1_0_0_1_n_n_wf

class Facts : Prop extends Facts₀ where

variable [Facts]
-- ==== Proof.KernelRun.lean ====
/-
  The idealized kernel's run with its result named.

  The program is three pipelined regions among stretches of host operations.  The contents of every unscoped buffer
  at each boundary are a fold through the program from the launch memory: a host stretch applies its operations, a
  region leaves its arrays at what its write-backs produce and every other buffer as entered.  At the return every
  unscoped buffer holds the last boundary's contents; the frame only reads the argument arrays off that fact, and
  here the result array is read off it as well: it ends at the last boundary's contents of its own buffer.
-/
import proofs.«129248_j70411693850861_1_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, without a fault, with the result array at the last
    boundary's contents of its buffer and the argument arrays as launched. -/
theorem run_result : θ_run defs (onTc (τ := τ) (main (F := F))) ⟨m, fun _ => 0, ρ⟩ (fun r => ∀ c : Dev nD,
      r.2.mem ((c.tc : Thread nD τ).loc main_v37) = W6 m ρ c (Proc.devRef .tc main_v37)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v37 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.RunV

end
-- ==== Proof.Spec.lean ====
/-
  The network the two programs compute, written once, index by index, on the extended reals.

  A node `p` of the graph has a feature row `h p` and an aggregated row `a p` (the weighted sum of its in-neighbours'
  rows).  A layer sends the row `h p + a p` through a dense map `W` with bias `b` and clamps below at zero:
      layer h a W b (p, q) = max (∑ₖ (h (p, k) + a (p, k)) · W (k, q) + b q, 0).
  The head takes the two layers' outputs `u`, `v`, multiplies each by its own half of the classifier's matrix, adds
  the bias, and normalises each row by log-softmax with the row's maximum taken out first:
      z (p, c) = (∑ₖ u (p, k) · A (k, c) + ∑ₖ v (p, k) · B (k, c)) + b c,
      out (p, c) = (z (p, c) − M p) − log (∑ⱼ exp (z (p, j) − M p)),     M p = maxⱼ z (p, j)
  (the maximum is a fold of `max` from the word of −∞).  No law of arithmetic is used here: these are definitions.
-/
import Idealize.ShloMosaic.PureOps.Ideal
import Idealize.ShloMosaic.Lib.ValueIdx

noncomputable section

namespace Cert.Gin

open Idealize.ShloMosaic Idealize.ShloMosaic.ValueIdx
open scoped BigOperators

/-- One entry of a layer: row `p` of `h + a` against column `q` of `W`, plus the bias, clamped below at zero.
    The bias is kept as a one-row matrix and the zero as the word the programs carry. -/
def layerAt {n : ℕ} (h a : FVec Ideal ⟨2, ![n, 128]⟩ .f32) (W : FVec Ideal ⟨2, ![128, 128]⟩ .f32)
    (b : FVec Ideal ⟨2, ![1, 128]⟩ .f32) (p : Fin n) (q : Fin 128) : EReal :=
  max ((∑ k : Fin 128, (h (ix2 p k) + a (ix2 p k)) * W (ix2 k q)) + b (ix2 (0 : Fin 1) q))
    (Ideal.ofBits .f32 0x00000000#32)

/-- A layer as a whole array. -/
def layer {n : ℕ} (h a : FVec Ideal ⟨2, ![n, 128]⟩ .f32) (W : FVec Ideal ⟨2, ![128, 128]⟩ .f32)
    (b : FVec Ideal ⟨2, ![1, 128]⟩ .f32) : FVec Ideal ⟨2, ![n, 128]⟩ .f32 :=
  fun i => layerAt h a W b (i 0) (i 1)

/-- One logit: row `p` of `u` against column `c` of `A`, row `p` of `v` against column `c` of `B`, and the bias. -/
def logitAt {n : ℕ} (u v : FVec Ideal ⟨2, ![n, 128]⟩ .f32) (A B : FVec Ideal ⟨2, ![128, 40]⟩ .f32)
    (b : FVec Ideal ⟨2, ![1, 40]⟩ .f32) (p : Fin n) (c : Fin 40) : EReal :=
  ((∑ k : Fin 128, u (ix2 p k) * A (ix2 k c)) + ∑ k : Fin 128, v (ix2 p k) * B (ix2 k c)) + b (ix2 (0 : Fin 1) c)

/-- A row's maximum: the fold of `max` over its forty entries from the word of −∞. -/
def rowMax (z : Fin 40 → EReal) : EReal :=
  (Finset.univ : Finset (Fin 40)).fold max (Ideal.ofBits .f32 0xFF800000#32) z

/-- Log-softmax of a row at an entry, the row's maximum taken out first. -/
def logSoftmaxAt (z : Fin 40 → EReal) (c : Fin 40) : EReal :=
  (z c - rowMax z) - Ideal.log (∑ j : Fin 40, Ideal.exp (z j - rowMax z))

/-- The head as a whole array. -/
def head {n : ℕ} (u v : FVec Ideal ⟨2, ![n, 128]⟩ .f32) (A B : FVec Ideal ⟨2, ![128, 40]⟩ .f32)
    (b : FVec Ideal ⟨2, ![1, 40]⟩ .f32) : FVec Ideal ⟨2, ![n, 40]⟩ .f32 :=
  fun i => logSoftmaxAt (fun j => logitAt u v A B b (i 0) j) (i 1)

end Cert.Gin

end
-- ==== Proof.LibKeepdims.lean ====
/-
  A reduction that keeps its axis (a row sum with keepdims), read at an index written by coordinates.

  A row-wise statistic of an `[a, b]` vector — its sum over the lanes — is a vector `[a]`; kept as a column it is
  cast to `[a, 1]` and broadcast back over the `b` lanes.  Three readings make that chain transparent at an
  index `(p, c)`:
  • the lane sum at row `p` is the sum, over `k : Fin b`, of the entries `(p, k)`;
  • the cast `[a] → [a, 1]` reads, at `(i, u)`, the vector at `i` (the unit coordinate `u` carries nothing);
  • the broadcast `[a, 1] → [a, b]` reads, at `(p, c)`, the column's entry of row `p`.
  The row-major position of `(i, u)` in `[a, 1]` is `i · 1 + u = i`, that of `i` in `[a]` is `i`: the cast is the
  identity on positions.  A broadcast keeps a coordinate on an axis of extent other than one and reads `0` on a unit
  axis; when `a = 1` the row coordinate is `0` anyway.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx
open scoped BigOperators

variable {α : Type}

/-- An `[a]` vector cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals the sum over the lanes of an `[a, b]` vector, read at row `p`, is the sum of that row's
    entries.  The side conditions are arguments, so the lemma meets a reduction whatever proofs it carries. -/
theorem multiReduction_add_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => ?_
  exact congrArg src (funext fun c => Fin.ext (by match c with | ⟨0, _⟩ => rfl | ⟨1, _⟩ => rfl))

end Cert.Keepdims
-- ==== Proof.LibRowOps.lean ====
/-
  Rows of a matrix on the extended reals: a plain matrix product read at an entry, and a row's maximum.

  • A matrix product `[a, K] × [K, b]` whose dimension numbers contract the one shared axis reads, at the entry
    `(r, q)`, as the sum over `k : Fin K` of `lhs (r, k) · rhs (k, q)` — for the kernel's product into a zero
    accumulator and for the host's product alike.  The dimension numbers enter only through four coordinate facts
    (which operand coordinate is the output's, which is the contraction's), so the lemma serves any record.
  • The maximum over the lanes of an `[a, b]` matrix, read at row `p`, is the fold of `max` over that row's entries
    from the accumulator's value — for the kernel's lane reduction and for the host's one-axis reduction alike.
-/
import Idealize.ShloMosaic.Lib.Pipeline.Value
import Idealize.ShloMosaic.Lib.ValueIdx
import Idealize.ShloMosaic.PureOps.Ideal.Laws

namespace Cert.RowOps

open Idealize.ShloMosaic Idealize.ShloMosaic.ValueIdx
open scoped BigOperators

/-- The contraction's sum re-indexed by the one contracted coordinate, for operands read at indices whose
    coordinates are those of a plain product. -/
theorem contr_sum_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (lhs : FVec Ideal ⟨2, ![a, K]⟩ φ₁) (rhs : FVec Ideal ⟨2, ![K, b]⟩ φ₂) (r : Fin a) (q : Fin b) :
    ∑ k : d.contr.Idx, lhs (d.lhsIdx (ix2 r q) k) * rhs (d.rhsIdx (ix2 r q) k)
      = ∑ k : Fin K, lhs (ix2 r k) * rhs (ix2 k q) := by
  rw [← Equiv.sum_comp (contrEquiv1 d K hr hs).symm]
  refine Finset.sum_congr rfl fun k _ => ?_
  have hk := contrEquiv1_symm_val d K hr hs k
  have el : d.lhsIdx (ix2 r q) ((contrEquiv1 d K hr hs).symm k) = ix2 r k := funext fun ax => Fin.ext (by
    match ax with
    | ⟨0, _⟩ => exact hl0 _ _
    | ⟨1, _⟩ => exact (hl1 _ _).trans hk)
  have er : d.rhsIdx (ix2 r q) ((contrEquiv1 d K hr hs).symm k) = ix2 k q := funext fun ax => Fin.ext (by
    match ax with
    | ⟨0, _⟩ => exact (hr0 _ _).trans hk
    | ⟨1, _⟩ => exact hr1 _ _)
  rw [el, er]

/-- The kernel's product into a zero accumulator, at an entry. -/
theorem matmul_zero_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    matmul d prec lhs rhs (constant (F := Ideal) ⟨2, ![a, b]⟩ .f32 0x00000000#32) (ix2 r q)
      = ∑ k : Fin K, lhs (ix2 r k) * rhs (ix2 k q) :=
  (Ideal.matmul_constant_zero_apply d prec lhs rhs (ix2 r q)).trans
    (contr_sum_entry d hr hs hl0 hl1 hr0 hr1 lhs rhs r q)

/-- The host's product, at an entry. -/
theorem dotGeneral_entry {a K b : ℕ} {φ₁ φ₂ : FTy} (d : DotDims ⟨2, ![a, K]⟩ ⟨2, ![K, b]⟩ ⟨2, ![a, b]⟩)
    (hr : d.contr.rank = 1) (hs : d.contr.size ⟨0, by omega⟩ = K)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val)
    (prec : Option ContractPrecision) (lhs : FVec Ideal ⟨2, ![a, K]⟩ φ₁) (rhs : FVec Ideal ⟨2, ![K, b]⟩ φ₂)
    (r : Fin a) (q : Fin b) :
    Host.dotGeneral (F := Ideal) d prec lhs rhs (ix2 r q) = ∑ k : Fin K, lhs (ix2 r k) * rhs (ix2 k q) := by
  simp only [Host.dotGeneral]
  exact (Ideal.dotGeneral_apply d prec _ lhs rhs (ix2 r q)).trans
    (contr_sum_entry d hr hs hl0 hl1 hr0 hr1 lhs rhs r q)

/-- The kernel's maximum over the lanes, at a row: the fold of `max` over the row from the accumulator's value. -/
theorem multiReduction_max_rows {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) := by
  refine (Ideal.multiReduction_maximumf_single src acc h hφ hacc (ix1 p)).trans ?_
  refine congrArg (Finset.fold max _ · _) (funext fun k => ?_)
  exact congrArg src (funext fun c => Fin.ext (by match c with | ⟨0, _⟩ => rfl | ⟨1, _⟩ => rfl))

/-- The host's maximum over the lanes, at a row: the same fold from the initial value. -/
theorem hostReduce_max_rows {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduce (FloatOps.maximumf (F := Ideal) (φ := φ)) x init h' hu (ix1 p)
      = (Finset.univ : Finset (Fin b)).fold max (init ix0) (fun k => x (ix2 p k)) := by
  refine (Host.reduce_eq_fold_single FloatOps.maximumf x init h' h hu (ix1 p)).trans ?_
  rw [eq_ix0 (Shape.Idx.first hu)]
  refine congrArg (Finset.fold max _ · _) (funext fun k => ?_)
  exact congrArg x (funext fun c => Fin.ext (by match c with | ⟨0, _⟩ => rfl | ⟨1, _⟩ => rfl))

end Cert.RowOps
-- ==== Proof.Payload.lean ====
/-
  What one grid point of each kernel computes from its loaded blocks, read at an entry of the block, on the
  extended reals (where rounding to bf16 on the way into a product is the identity).

  • A combine body holds a block of 4000 rows of `h` and of `a`, the whole `W` and the bias row.  Its stored value
    at `(r, q)` is `max (∑ₖ (h (r, k) + a (r, k)) · W (k, q) + bias q, 0)`: the product into a zero accumulator is the
    plain sum, the bias row is broadcast over the rows.
  • The head's body holds a block of rows of both layers' outputs, the two halves of the classifier's matrix and its
    bias row.  Its logits at `(r, c)` are the two products' sum plus the bias; its stored value is the row's
    log-softmax with the maximum taken out: the lane maximum and the lane sum are kept as columns and broadcast back.
-/
import proofs.«129248_j70411693850861_1_alg».proof.Proof.Gen.KernelIdeal.Skeleton
import proofs.«129248_j70411693850861_1_alg».proof.Proof.Spec
import proofs.«129248_j70411693850861_1_alg».proof.Proof.LibKeepdims
import proofs.«129248_j70411693850861_1_alg».proof.Proof.LibRowOps
import Idealize.ShloMosaic.Lib.ValueLayout

noncomputable section

namespace Cert.KernelIdeal.Pay

open Cert.KernelIdeal Cert.KernelIdeal.Gen Idealize.ShloMosaic Idealize.ShloMosaic.ValueIdx Idealize.ShloMosaic.TcCoe
open scoped BigOperators
open Facts₀ Facts

variable [Cert.KernelIdeal.Facts]

/-! ## The two products' dimension numbers: which operand coordinate is which -/

abbrev DW := dot_S4000x128_S128x128_S4000x128_1_0_0_1_n_n
abbrev DC := dot_S4000x128_S128x40_S4000x40_1_0_0_1_n_n

theorem DW_l0 (i : S4000x128.Idx) (q : DW.contr.Idx) : (DW.lhsIdx i q 0).val = (i 0).val := by
  unfold DotDims.lhsIdx
  rw [dif_neg (show ¬(0 : Fin S4000x128.rank) ∈ DW.lhsBatch by decide), dif_pos (show (0 : Fin S4000x128.rank) ∈ DW.lhsNonContracting by decide)]
  rfl
theorem DW_l1 (i : S4000x128.Idx) (q : DW.contr.Idx) : (DW.lhsIdx i q 1).val = (q ⟨0, by decide⟩).val :=
  DW.lhsIdx_val_of_single rfl i q
theorem DW_r0 (i : S4000x128.Idx) (q : DW.contr.Idx) : (DW.rhsIdx i q 0).val = (q ⟨0, by decide⟩).val :=
  DW.rhsIdx_val_of_single rfl i q
theorem DW_r1 (i : S4000x128.Idx) (q : DW.contr.Idx) : (DW.rhsIdx i q 1).val = (i 1).val := by
  unfold DotDims.rhsIdx
  rw [dif_neg (show ¬(1 : Fin S128x128.rank) ∈ DW.rhsBatch by decide), dif_pos (show (1 : Fin S128x128.rank) ∈ DW.rhsNonContracting by decide)]
  rfl

theorem DC_l0 (i : S4000x40.Idx) (q : DC.contr.Idx) : (DC.lhsIdx i q 0).val = (i 0).val := by
  unfold DotDims.lhsIdx
  rw [dif_neg (show ¬(0 : Fin S4000x128.rank) ∈ DC.lhsBatch by decide), dif_pos (show (0 : Fin S4000x128.rank) ∈ DC.lhsNonContracting by decide)]
  rfl
theorem DC_l1 (i : S4000x40.Idx) (q : DC.contr.Idx) : (DC.lhsIdx i q 1).val = (q ⟨0, by decide⟩).val :=
  DC.lhsIdx_val_of_single rfl i q
theorem DC_r0 (i : S4000x40.Idx) (q : DC.contr.Idx) : (DC.rhsIdx i q 0).val = (q ⟨0, by decide⟩).val :=
  DC.rhsIdx_val_of_single rfl i q
theorem DC_r1 (i : S4000x40.Idx) (q : DC.contr.Idx) : (DC.rhsIdx i q 1).val = (i 1).val := by
  unfold DotDims.rhsIdx
  rw [dif_neg (show ¬(1 : Fin S128x40.rank) ∈ DC.rhsBatch by decide), dif_pos (show (1 : Fin S128x40.rank) ∈ DC.rhsNonContracting by decide)]
  rfl

/-! ## The combine bodies -/

/-- The first combine body at an entry of its block. -/
theorem pay0_apply (x0 x1 : Vec Ideal S4000x128 .f32) (x2 : Vec Ideal S128x128 .f32) (x3 : Vec Ideal S1x128 .f32)
    (r : Fin 4000) (q : Fin 128) :
    k0_pay1 (F := Ideal) x0 x1 x2 x3 (ix2 r q) = Cert.Gin.layerAt x0 x1 x2 x3 r q := by
  unfold k0_pay1 Cert.Gin.layerAt
  refine congrArg₂ max (congrArg₂ (· + ·) ?_ ?_) rfl
  · refine (Cert.RowOps.matmul_zero_entry DW rfl rfl DW_l0 DW_l1 DW_r0 DW_r1 none _ _ r q).trans ?_
    refine Finset.sum_congr rfl fun k _ => ?_
    rw [shapeCast_self]
    rfl
  · rw [shapeCast_self]
    exact broadcastTo_1b_ab_apply x3 _ r q

/-- The second combine body at an entry of its block: the same function. -/
theorem pay1_apply (x0 x1 : Vec Ideal S4000x128 .f32) (x2 : Vec Ideal S128x128 .f32) (x3 : Vec Ideal S1x128 .f32)
    (r : Fin 4000) (q : Fin 128) :
    k1_pay1 (F := Ideal) x0 x1 x2 x3 (ix2 r q) = Cert.Gin.layerAt x0 x1 x2 x3 r q := by
  unfold k1_pay1 Cert.Gin.layerAt
  refine congrArg₂ max (congrArg₂ (· + ·) ?_ ?_) rfl
  · refine (Cert.RowOps.matmul_zero_entry DW rfl rfl DW_l0 DW_l1 DW_r0 DW_r1 none _ _ r q).trans ?_
    refine Finset.sum_congr rfl fun k _ => ?_
    rw [shapeCast_self, shapeCast_self]
    rfl
  · rw [shapeCast_self]
    exact broadcastTo_1b_ab_apply x3 _ r q

/-! ## The head's body: its logits, then the row normalisation -/

/-- The logits block: the two products' sum plus the broadcast bias row. -/
def logitsV (x0 x1 : Vec Ideal S4000x128 .f32) (x2 x3 : Vec Ideal S128x40 .f32) (x4 : Vec Ideal S1x40 .f32) :
    FVec Ideal S4000x40 .f32 :=
  addf (addf
      (matmul DC none (truncf .bf16 (shapeCast S4000x128 x0 Facts₀.shapeCasts_S4000x128_S4000x128) Facts₀.bitsLt_bf16_f32)
        (truncf .bf16 (shapeCast S128x40 x2 Facts₀.shapeCasts_S128x40_S128x40) Facts₀.bitsLt_bf16_f32) (constant S4000x40 .f32 0x00000000#32))
      (matmul DC none (truncf .bf16 (shapeCast S4000x128 x1 Facts₀.shapeCasts_S4000x128_S4000x128) Facts₀.bitsLt_bf16_f32)
        (truncf .bf16 (shapeCast S128x40 x3 Facts₀.shapeCasts_S128x40_S128x40) Facts₀.bitsLt_bf16_f32) (constant S4000x40 .f32 0x00000000#32)))
    (broadcastTo S4000x40 (shapeCast S1x40 x4 Facts₀.shapeCasts_S1x40_S1x40) Facts₀.broadcasts_S1x40_S4000x40)

/-- The row's maximum kept as a column and broadcast back over the lanes. -/
def rowMaxV (z : FVec Ideal S4000x40 .f32) : FVec Ideal S4000x40 .f32 :=
  broadcastTo S4000x40 (shapeCast S4000x1
    (multiReduction .maximumf [1] S4000 z 0xFF800000#32 Facts₀.reduces_S4000x40_S4000 (.inl rfl) rfl) Facts₀.shapeCasts_S4000_S4000x1)
    Facts₀.broadcasts_S4000x1_S4000x40

/-- The normalisation of a logits block: subtract the row maximum, then the logarithm of the row's summed exponentials. -/
def normV (z : FVec Ideal S4000x40 .f32) : FVec Ideal S4000x40 .f32 :=
  subf (subf z (rowMaxV z))
    (broadcastTo S4000x40 (log (shapeCast S4000x1
      (multiReduction .add [1] S4000 (exp (subf z (rowMaxV z))) 0x00000000#32 Facts₀.reduces_S4000x40_S4000 (.inl rfl) rfl)
      Facts₀.shapeCasts_S4000_S4000x1)) Facts₀.broadcasts_S4000x1_S4000x40)

/-- The head's stored value is the normalisation of its logits. -/
theorem pay2_split (x0 x1 : Vec Ideal S4000x128 .f32) (x2 x3 : Vec Ideal S128x40 .f32) (x4 : Vec Ideal S1x40 .f32) :
    k2_pay1 (F := Ideal) x0 x1 x2 x3 x4 = normV (logitsV x0 x1 x2 x3 x4) := rfl

/-- A logit at an entry of the block. -/
theorem logitsV_apply (x0 x1 : Vec Ideal S4000x128 .f32) (x2 x3 : Vec Ideal S128x40 .f32) (x4 : Vec Ideal S1x40 .f32)
    (r : Fin 4000) (c : Fin 40) :
    logitsV x0 x1 x2 x3 x4 (ix2 r c) = Cert.Gin.logitAt x0 x1 x2 x3 x4 r c := by
  unfold logitsV Cert.Gin.logitAt
  refine congrArg₂ (· + ·) (congrArg₂ (· + ·) ?_ ?_) ?_
  · refine (Cert.RowOps.matmul_zero_entry DC rfl rfl DC_l0 DC_l1 DC_r0 DC_r1 none _ _ r c).trans ?_
    refine Finset.sum_congr rfl fun k _ => ?_
    rw [shapeCast_self, shapeCast_self]
    rfl
  · refine (Cert.RowOps.matmul_zero_entry DC rfl rfl DC_l0 DC_l1 DC_r0 DC_r1 none _ _ r c).trans ?_
    refine Finset.sum_congr rfl fun k _ => ?_
    rw [shapeCast_self, shapeCast_self]
    rfl
  · rw [shapeCast_self]
    exact broadcastTo_1b_ab_apply x4 _ r c

/-- The broadcast row maximum at an entry: the fold of `max` over the row. -/
theorem rowMaxV_apply (z : FVec Ideal S4000x40 .f32) (r : Fin 4000) (c : Fin 40) :
    rowMaxV z (ix2 r c) = Cert.Gin.rowMax (fun j => z (ix2 r j)) :=
  (Cert.Keepdims.broadcastTo_a1_ab_apply _ _ r c).trans
    ((Cert.Keepdims.shapeCast_a_a1_apply _ _ r 0).trans (Cert.RowOps.multiReduction_max_rows z _ _ _ _ r))

/-- The normalisation at an entry: the row's log-softmax. -/
theorem normV_apply (z : FVec Ideal S4000x40 .f32) (r : Fin 4000) (c : Fin 40) :
    normV z (ix2 r c) = Cert.Gin.logSoftmaxAt (fun j => z (ix2 r j)) c := by
  unfold normV Cert.Gin.logSoftmaxAt
  refine congrArg₂ (· - ·) (congrArg (z (ix2 r c) - ·) (rowMaxV_apply z r c)) ?_
  refine (Cert.Keepdims.broadcastTo_a1_ab_apply _ _ r c).trans ?_
  refine congrArg Ideal.log ?_
  refine (Cert.Keepdims.shapeCast_a_a1_apply _ _ r 0).trans ?_
  refine (Cert.Keepdims.multiReduction_add_rows _ _ _ _ _ r).trans ?_
  refine Finset.sum_congr rfl fun j _ => ?_
  exact congrArg Ideal.exp (congrArg (z (ix2 r j) - ·) (rowMaxV_apply z r j))

/-- The head's body at an entry of its block. -/
theorem pay2_apply (x0 x1 : Vec Ideal S4000x128 .f32) (x2 x3 : Vec Ideal S128x40 .f32) (x4 : Vec Ideal S1x40 .f32)
    (r : Fin 4000) (c : Fin 40) :
    k2_pay1 (F := Ideal) x0 x1 x2 x3 x4 (ix2 r c)
      = Cert.Gin.logSoftmaxAt (fun j => Cert.Gin.logitAt x0 x1 x2 x3 x4 r j) c := by
  rw [pay2_split, normV_apply]
  exact congrArg (Cert.Gin.logSoftmaxAt · c) (funext fun j => logitsV_apply x0 x1 x2 x3 x4 r j)

end Cert.KernelIdeal.Pay

end
-- ==== Proof.Blocks0.lean ====
/-
  Region 0 (the first combine), block by block and then as a whole array.

  The grid has 25 points; point `t` holds rows `4000 t … 4000 t + 3999` of `h` and of `a`, the whole `W` and the bias row,
  and writes back rows `4000 t … 4000 t + 3999` of the result.  An entry `(4000 t + r, q)` of the layer depends only on
  row `4000 t + r` of `h` and `a`, which is row `r` of the point's blocks: so what point `t` writes back is block `t` of
  the whole-array layer.  The 25 blocks tile the 100000 rows (row `i` lies in block `i / 4000`), so the array ends at
  the layer of the arrays the region was entered with.
-/
import proofs.«129248_j70411693850861_1_alg».proof.Proof.Gen.KernelIdeal.Frame
import proofs.«129248_j70411693850861_1_alg».proof.Proof.Payload

set_option maxRecDepth 16384

noncomputable section

namespace Cert.KernelIdeal.Blk0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `t`, the whole-array windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- One point's stored value at an entry is the whole-array layer at the entry's place in the array, once the
    point's blocks are known to be the stated rows of the arrays. -/
theorem point (h a : FVec Ideal S100000x128 .f32) (W : FVec Ideal S128x128 .f32) (b : FVec Ideal S1x128 .f32)
    (x0 x1 : Vec Ideal S4000x128 .f32) (x2 : Vec Ideal S128x128 .f32) (x3 : Vec Ideal S1x128 .f32) (T : ℕ)
    (h0 : ∀ (y : S4000x128.Idx) (i : S100000x128.Idx), (i 0).val = T * 4000 + (y 0).val → (i 1).val = (y 1).val → x0 y = h i)
    (h1 : ∀ (y : S4000x128.Idx) (i : S100000x128.Idx), (i 0).val = T * 4000 + (y 0).val → (i 1).val = (y 1).val → x1 y = a i)
    (h2 : ∀ y, x2 y = W y) (h3 : ∀ y, x3 y = b y)
    (y : S4000x128.Idx) (i : S100000x128.Idx) (hi0 : (i 0).val = T * 4000 + (y 0).val) (hi1 : (i 1).val = (y 1).val) :
    k0_pay1 (F := Ideal) x0 x1 x2 x3 y = Cert.Gin.layer h a W b i := by
  obtain ⟨r, q, rfl⟩ : ∃ (r : Fin 4000) (q : Fin 128), y = ix2 r q := ⟨y 0, y 1, eq_ix2 y⟩
  obtain ⟨p, q', rfl⟩ : ∃ (p : Fin 100000) (q' : Fin 128), i = ix2 p q' := ⟨i 0, i 1, eq_ix2 i⟩
  obtain rfl : q = q' := Fin.ext hi1.symm
  rw [Cert.KernelIdeal.Pay.pay0_apply]
  show Cert.Gin.layerAt x0 x1 x2 x3 r q = Cert.Gin.layerAt h a W b p q
  unfold Cert.Gin.layerAt
  rw [h3]
  refine congrArg₂ max (congrArg₂ (· + ·) (Finset.sum_congr rfl fun k _ => ?_) rfl) rfl
  rw [h0 (ix2 r k) (ix2 p k) hi0 rfl, h1 (ix2 r k) (ix2 p k) hi0 rfl, h2]

/-- What point `t` writes back is block `t` of the layer of the arrays as the region finds them. -/
theorem flushed_eq (c : Dev nD) (t : Fin cfg0.N) :
    (dat0 V c).flushed 4 t = ((cfg0.win 4).blk t).view.read (Elt Ideal)
      (Cert.Gin.layer (V c main_arg0) (V c main_v16) (V c main_arg3) (V c main_v17)) := by
  show (cfg0.win 4).cut (grid0.coords t) ((dat0 V c).after 4 t) = _
  rw [after0_4]
  unfold out0_4
  rw [View.canon_unit_zero hz]
  simp only [View.ld_unit_zero (S := S4000x128) hz, View.ld_unit_zero (S := S128x128) hz, View.ld_unit_zero (S := S1x128) hz]
  obtain ⟨e00, e01, e10, e11, e20, e21, e30, e31, e40, e41⟩ := idx_facts t
  funext j
  refine point (V c main_arg0) (V c main_v16) (V c main_arg3) (V c main_v17) _ _ _ _ t.val ?_ ?_ ?_ ?_ j _ ?_ ?_
  · intro y i hi0 hi1
    show V c main_arg0 (((cfg0.win 0).blk t).view.emb y) = V c main_arg0 i
    refine congrArg _ (funext fun ax => Fin.ext ?_)
    match ax with
    | ⟨0, _⟩ => show win0_0.index t (0 : Fin 2) * 4000 + 1 * (y 0).val = (i 0).val; omega
    | ⟨1, _⟩ => show win0_0.index t (1 : Fin 2) * 128 + 1 * (y 1).val = (i 1).val; omega
  · intro y i hi0 hi1
    show V c main_v16 (((cfg0.win 1).blk t).view.emb y) = V c main_v16 i
    refine congrArg _ (funext fun ax => Fin.ext ?_)
    match ax with
    | ⟨0, _⟩ => show win0_1.index t (0 : Fin 2) * 4000 + 1 * (y 0).val = (i 0).val; omega
    | ⟨1, _⟩ => show win0_1.index t (1 : Fin 2) * 128 + 1 * (y 1).val = (i 1).val; omega
  · intro y
    show V c main_arg3 (((cfg0.win 2).blk t).view.emb y) = V c main_arg3 y
    refine congrArg _ (funext fun ax => Fin.ext ?_)
    match ax with
    | ⟨0, _⟩ => show win0_2.index t (0 : Fin 2) * 128 + 1 * (y 0).val = (y 0).val; omega
    | ⟨1, _⟩ => show win0_2.index t (1 : Fin 2) * 128 + 1 * (y 1).val = (y 1).val; omega
  · intro y
    show V c main_v17 (((cfg0.win 3).blk t).view.emb y) = V c main_v17 y
    refine congrArg _ (funext fun ax => Fin.ext ?_)
    match ax with
    | ⟨0, _⟩ => show win0_3.index t (0 : Fin 2) * 1 + 1 * (y 0).val = (y 0).val; omega
    | ⟨1, _⟩ => show win0_3.index t (1 : Fin 2) * 128 + 1 * (y 1).val = (y 1).val; omega
  · show win0_4.index t (0 : Fin 2) * 4000 + 1 * (j 0).val = t.val * 4000 + (j 0).val; omega
  · show win0_4.index t (1 : Fin 2) * 128 + 1 * (j 1).val = (j 1).val; omega

/-- An index of the result array is in point `t`'s block iff each coordinate is in the block's range on its axis. -/
theorem mem_blk (t : Fin cfg0.N) (i : S100000x128.Idx) :
    i ∈ ((cfg0.win 4).blk t).view.set ↔ ∀ a : Fin 2, win0_4.index t a * S4000x128.size a ≤ (i a).val ∧ (i a).val < win0_4.index t a * S4000x128.size a + S4000x128.size a := by
  show i ∈ ((View.whole main_v18).slice (win0_4.rect t)).set ↔ _
  rw [View.set_slice_whole, Rect.mem_set_unit]
  exact Iff.rfl

/-- Every row of the result lies in the block of the point `row / 4000`. -/
theorem cover (i : S100000x128.Idx) : ∃ t : Fin cfg0.N, (cfg0.win 4).flush t = true ∧ i ∈ ((cfg0.win 4).blk t).view.set := by
  have hi0 : (i 0).val < 100000 := idx2_lt0 i
  have hi1 : (i 1).val < 128 := idx2_lt1 i
  have hN : cfg0.N = 25 := N_0
  let t : Fin cfg0.N := ⟨(i 0).val / 4000, by rw [hN]; omega⟩
  refine ⟨t, flush0_4 t, ?_⟩
  obtain ⟨e00, e01, e10, e11, e20, e21, e30, e31, e40, e41⟩ := idx_facts t
  have ht : t.val = (i 0).val / 4000 := rfl
  rw [mem_blk]
  intro a
  match a with
  | ⟨0, _⟩ => show win0_4.index t (0 : Fin 2) * 4000 ≤ (i 0).val ∧ (i 0).val < win0_4.index t (0 : Fin 2) * 4000 + 4000; omega
  | ⟨1, _⟩ => show win0_4.index t (1 : Fin 2) * 128 ≤ (i 1).val ∧ (i 1).val < win0_4.index t (1 : Fin 2) * 128 + 128; omega

/-- The result array after the region: the layer of the arrays the region was entered with. -/
theorem final (c : Dev nD) :
    (dat0 V c).arrAt 4 cfg0.N = Cert.Gin.layer (V c main_arg0) (V c main_v16) (V c main_arg3) (V c main_v17) :=
  (dat0 V c).arrAt_eq_of_cover 4 _ (fun t _ => flushed_eq V c t) cover

end Cert.KernelIdeal.Blk0

end
-- ==== Proof.Blocks1.lean ====
/-
  Region 1 (the second combine), block by block and then as a whole array.

  The grid has 25 points; point `t` holds rows `4000 t … 4000 t + 3999` of `h` and of `a`, the whole `W` and the bias row,
  and writes back rows `4000 t … 4000 t + 3999` of the result.  An entry `(4000 t + r, q)` of the layer depends only on
  row `4000 t + r` of `h` and `a`, which is row `r` of the point's blocks: so what point `t` writes back is block `t` of
  the whole-array layer.  The 25 blocks tile the 100000 rows (row `i` lies in block `i / 4000`), so the array ends at
  the layer of the arrays the region was entered with.
-/
import proofs.«129248_j70411693850861_1_alg».proof.Proof.Gen.KernelIdeal.Frame
import proofs.«129248_j70411693850861_1_alg».proof.Proof.Payload

set_option maxRecDepth 16384

noncomputable section

namespace Cert.KernelIdeal.Blk1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `t`, the whole-array windows at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- One point's stored value at an entry is the whole-array layer at the entry's place in the array, once the
    point's blocks are known to be the stated rows of the arrays. -/
theorem point (h a : FVec Ideal S100000x128 .f32) (W : FVec Ideal S128x128 .f32) (b : FVec Ideal S1x128 .f32)
    (x0 x1 : Vec Ideal S4000x128 .f32) (x2 : Vec Ideal S128x128 .f32) (x3 : Vec Ideal S1x128 .f32) (T : ℕ)
    (h0 : ∀ (y : S4000x128.Idx) (i : S100000x128.Idx), (i 0).val = T * 4000 + (y 0).val → (i 1).val = (y 1).val → x0 y = h i)
    (h1 : ∀ (y : S4000x128.Idx) (i : S100000x128.Idx), (i 0).val = T * 4000 + (y 0).val → (i 1).val = (y 1).val → x1 y = a i)
    (h2 : ∀ y, x2 y = W y) (h3 : ∀ y, x3 y = b y)
    (y : S4000x128.Idx) (i : S100000x128.Idx) (hi0 : (i 0).val = T * 4000 + (y 0).val) (hi1 : (i 1).val = (y 1).val) :
    k1_pay1 (F := Ideal) x0 x1 x2 x3 y = Cert.Gin.layer h a W b i := by
  obtain ⟨r, q, rfl⟩ : ∃ (r : Fin 4000) (q : Fin 128), y = ix2 r q := ⟨y 0, y 1, eq_ix2 y⟩
  obtain ⟨p, q', rfl⟩ : ∃ (p : Fin 100000) (q' : Fin 128), i = ix2 p q' := ⟨i 0, i 1, eq_ix2 i⟩
  obtain rfl : q = q' := Fin.ext hi1.symm
  rw [Cert.KernelIdeal.Pay.pay1_apply]
  show Cert.Gin.layerAt x0 x1 x2 x3 r q = Cert.Gin.layerAt h a W b p q
  unfold Cert.Gin.layerAt
  rw [h3]
  refine congrArg₂ max (congrArg₂ (· + ·) (Finset.sum_congr rfl fun k _ => ?_) rfl) rfl
  rw [h0 (ix2 r k) (ix2 p k) hi0 rfl, h1 (ix2 r k) (ix2 p k) hi0 rfl, h2]

/-- What point `t` writes back is block `t` of the layer of the arrays as the region finds them. -/
theorem flushed_eq (c : Dev nD) (t : Fin cfg1.N) :
    (dat1 V c).flushed 4 t = ((cfg1.win 4).blk t).view.read (Elt Ideal)
      (Cert.Gin.layer (V c main_v18) (V c main_v31) (V c main_arg5) (V c main_v32)) := by
  show (cfg1.win 4).cut (grid1.coords t) ((dat1 V c).after 4 t) = _
  rw [after1_4]
  unfold out1_4
  rw [View.canon_unit_zero hz]
  simp only [View.ld_unit_zero (S := S4000x128) hz, View.ld_unit_zero (S := S128x128) hz, View.ld_unit_zero (S := S1x128) hz]
  obtain ⟨e00, e01, e10, e11, e20, e21, e30, e31, e40, e41⟩ := idx_facts t
  funext j
  refine point (V c main_v18) (V c main_v31) (V c main_arg5) (V c main_v32) _ _ _ _ t.val ?_ ?_ ?_ ?_ j _ ?_ ?_
  · intro y i hi0 hi1
    show V c main_v18 (((cfg1.win 0).blk t).view.emb y) = V c main_v18 i
    refine congrArg _ (funext fun ax => Fin.ext ?_)
    match ax with
    | ⟨0, _⟩ => show win1_0.index t (0 : Fin 2) * 4000 + 1 * (y 0).val = (i 0).val; omega
    | ⟨1, _⟩ => show win1_0.index t (1 : Fin 2) * 128 + 1 * (y 1).val = (i 1).val; omega
  · intro y i hi0 hi1
    show V c main_v31 (((cfg1.win 1).blk t).view.emb y) = V c main_v31 i
    refine congrArg _ (funext fun ax => Fin.ext ?_)
    match ax with
    | ⟨0, _⟩ => show win1_1.index t (0 : Fin 2) * 4000 + 1 * (y 0).val = (i 0).val; omega
    | ⟨1, _⟩ => show win1_1.index t (1 : Fin 2) * 128 + 1 * (y 1).val = (i 1).val; omega
  · intro y
    show V c main_arg5 (((cfg1.win 2).blk t).view.emb y) = V c main_arg5 y
    refine congrArg _ (funext fun ax => Fin.ext ?_)
    match ax with
    | ⟨0, _⟩ => show win1_2.index t (0 : Fin 2) * 128 + 1 * (y 0).val = (y 0).val; omega
    | ⟨1, _⟩ => show win1_2.index t (1 : Fin 2) * 128 + 1 * (y 1).val = (y 1).val; omega
  · intro y
    show V c main_v32 (((cfg1.win 3).blk t).view.emb y) = V c main_v32 y
    refine congrArg _ (funext fun ax => Fin.ext ?_)
    match ax with
    | ⟨0, _⟩ => show win1_3.index t (0 : Fin 2) * 1 + 1 * (y 0).val = (y 0).val; omega
    | ⟨1, _⟩ => show win1_3.index t (1 : Fin 2) * 128 + 1 * (y 1).val = (y 1).val; omega
  · show win1_4.index t (0 : Fin 2) * 4000 + 1 * (j 0).val = t.val * 4000 + (j 0).val; omega
  · show win1_4.index t (1 : Fin 2) * 128 + 1 * (j 1).val = (j 1).val; omega

/-- An index of the result array is in point `t`'s block iff each coordinate is in the block's range on its axis. -/
theorem mem_blk (t : Fin cfg1.N) (i : S100000x128.Idx) :
    i ∈ ((cfg1.win 4).blk t).view.set ↔ ∀ a : Fin 2, win1_4.index t a * S4000x128.size a ≤ (i a).val ∧ (i a).val < win1_4.index t a * S4000x128.size a + S4000x128.size a := by
  show i ∈ ((View.whole main_v33).slice (win1_4.rect t)).set ↔ _
  rw [View.set_slice_whole, Rect.mem_set_unit]
  exact Iff.rfl

/-- Every row of the result lies in the block of the point `row / 4000`. -/
theorem cover (i : S100000x128.Idx) : ∃ t : Fin cfg1.N, (cfg1.win 4).flush t = true ∧ i ∈ ((cfg1.win 4).blk t).view.set := by
  have hi0 : (i 0).val < 100000 := idx2_lt0 i
  have hi1 : (i 1).val < 128 := idx2_lt1 i
  have hN : cfg1.N = 25 := N_1
  let t : Fin cfg1.N := ⟨(i 0).val / 4000, by rw [hN]; omega⟩
  refine ⟨t, flush1_4 t, ?_⟩
  obtain ⟨e00, e01, e10, e11, e20, e21, e30, e31, e40, e41⟩ := idx_facts t
  have ht : t.val = (i 0).val / 4000 := rfl
  rw [mem_blk]
  intro a
  match a with
  | ⟨0, _⟩ => show win1_4.index t (0 : Fin 2) * 4000 ≤ (i 0).val ∧ (i 0).val < win1_4.index t (0 : Fin 2) * 4000 + 4000; omega
  | ⟨1, _⟩ => show win1_4.index t (1 : Fin 2) * 128 ≤ (i 1).val ∧ (i 1).val < win1_4.index t (1 : Fin 2) * 128 + 128; omega

/-- The result array after the region: the layer of the arrays the region was entered with. -/
theorem final (c : Dev nD) :
    (dat1 V c).arrAt 4 cfg1.N = Cert.Gin.layer (V c main_v18) (V c main_v31) (V c main_arg5) (V c main_v32) :=
  (dat1 V c).arrAt_eq_of_cover 4 _ (fun t _ => flushed_eq V c t) cover

end Cert.KernelIdeal.Blk1

end
-- ==== Proof.Blocks2.lean ====
/-
  Region 2 (the classifier head), block by block and then as a whole array.

  The grid has 25 points; point `t` holds rows `4000 t … 4000 t + 3999` of both layers' outputs, the two halves of the
  classifier's matrix and its bias row, and writes back rows `4000 t … 4000 t + 3999` of the result.  A row of the
  result depends only on the same row of the two inputs, which is a row of the point's blocks: what point `t` writes
  back is block `t` of the whole-array head.  The 25 blocks tile the 100000 rows, so the array ends at the head of
  the arrays the region was entered with.
-/
import proofs.«129248_j70411693850861_1_alg».proof.Proof.Gen.KernelIdeal.Frame
import proofs.«129248_j70411693850861_1_alg».proof.Proof.Payload

set_option maxRecDepth 16384

noncomputable section

namespace Cert.KernelIdeal.Blk2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row-blocked windows sit at block `t`, the whole-array windows at block 0. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- One point's stored value at an entry is the whole-array head at the entry's place in the array, once the
    point's blocks are known to be the stated rows of the arrays. -/
theorem point (u v : FVec Ideal S100000x128 .f32) (A B : FVec Ideal S128x40 .f32) (b : FVec Ideal S1x40 .f32)
    (x0 x1 : Vec Ideal S4000x128 .f32) (x2 x3 : Vec Ideal S128x40 .f32) (x4 : Vec Ideal S1x40 .f32) (T : ℕ)
    (h0 : ∀ (y : S4000x128.Idx) (i : S100000x128.Idx), (i 0).val = T * 4000 + (y 0).val → (i 1).val = (y 1).val → x0 y = u i)
    (h1 : ∀ (y : S4000x128.Idx) (i : S100000x128.Idx), (i 0).val = T * 4000 + (y 0).val → (i 1).val = (y 1).val → x1 y = v i)
    (h2 : ∀ y, x2 y = A y) (h3 : ∀ y, x3 y = B y) (h4 : ∀ y, x4 y = b y)
    (y : S4000x40.Idx) (i : S100000x40.Idx) (hi0 : (i 0).val = T * 4000 + (y 0).val) (hi1 : (i 1).val = (y 1).val) :
    k2_pay1 (F := Ideal) x0 x1 x2 x3 x4 y = Cert.Gin.head u v A B b i := by
  obtain ⟨r, q, rfl⟩ : ∃ (r : Fin 4000) (q : Fin 40), y = ix2 r q := ⟨y 0, y 1, eq_ix2 y⟩
  obtain ⟨p, q', rfl⟩ : ∃ (p : Fin 100000) (q' : Fin 40), i = ix2 p q' := ⟨i 0, i 1, eq_ix2 i⟩
  obtain rfl : q = q' := Fin.ext hi1.symm
  rw [Cert.KernelIdeal.Pay.pay2_apply]
  show Cert.Gin.logSoftmaxAt (fun j => Cert.Gin.logitAt x0 x1 x2 x3 x4 r j) q
    = Cert.Gin.logSoftmaxAt (fun j => Cert.Gin.logitAt u v A B b p j) q
  refine congrArg (Cert.Gin.logSoftmaxAt · q) (funext fun j => ?_)
  unfold Cert.Gin.logitAt
  rw [h4]
  refine congrArg₂ (· + ·) (congrArg₂ (· + ·) (Finset.sum_congr rfl fun k _ => ?_) (Finset.sum_congr rfl fun k _ => ?_)) rfl
  · rw [h0 (ix2 r k) (ix2 p k) hi0 rfl, h2]
  · rw [h1 (ix2 r k) (ix2 p k) hi0 rfl, h3]

/-- What point `t` writes back is block `t` of the head of the arrays as the region finds them. -/
theorem flushed_eq (c : Dev nD) (t : Fin cfg2.N) :
    (dat2 V c).flushed 5 t = ((cfg2.win 5).blk t).view.read (Elt Ideal)
      (Cert.Gin.head (V c main_v18) (V c main_v33) (V c main_v34) (V c main_v35) (V c main_v36)) := by
  show (cfg2.win 5).cut (grid2.coords t) ((dat2 V c).after 5 t) = _
  rw [after2_5]
  unfold out2_5
  rw [View.canon_unit_zero hz]
  simp only [View.ld_unit_zero (S := S4000x128) hz, View.ld_unit_zero (S := S128x40) hz, View.ld_unit_zero (S := S1x40) hz]
  obtain ⟨e00, e01, e10, e11, e20, e21, e30, e31, e40, e41, e50, e51⟩ := idx_facts t
  funext j
  refine point (V c main_v18) (V c main_v33) (V c main_v34) (V c main_v35) (V c main_v36) _ _ _ _ _ t.val ?_ ?_ ?_ ?_ ?_ j _ ?_ ?_
  · intro y i hi0 hi1
    show V c main_v18 (((cfg2.win 0).blk t).view.emb y) = V c main_v18 i
    refine congrArg _ (funext fun ax => Fin.ext ?_)
    match ax with
    | ⟨0, _⟩ => show win2_0.index t (0 : Fin 2) * 4000 + 1 * (y 0).val = (i 0).val; omega
    | ⟨1, _⟩ => show win2_0.index t (1 : Fin 2) * 128 + 1 * (y 1).val = (i 1).val; omega
  · intro y i hi0 hi1
    show V c main_v33 (((cfg2.win 1).blk t).view.emb y) = V c main_v33 i
    refine congrArg _ (funext fun ax => Fin.ext ?_)
    match ax with
    | ⟨0, _⟩ => show win2_1.index t (0 : Fin 2) * 4000 + 1 * (y 0).val = (i 0).val; omega
    | ⟨1, _⟩ => show win2_1.index t (1 : Fin 2) * 128 + 1 * (y 1).val = (i 1).val; omega
  · intro y
    show V c main_v34 (((cfg2.win 2).blk t).view.emb y) = V c main_v34 y
    refine congrArg _ (funext fun ax => Fin.ext ?_)
    match ax with
    | ⟨0, _⟩ => show win2_2.index t (0 : Fin 2) * 128 + 1 * (y 0).val = (y 0).val; omega
    | ⟨1, _⟩ => show win2_2.index t (1 : Fin 2) * 40 + 1 * (y 1).val = (y 1).val; omega
  · intro y
    show V c main_v35 (((cfg2.win 3).blk t).view.emb y) = V c main_v35 y
    refine congrArg _ (funext fun ax => Fin.ext ?_)
    match ax with
    | ⟨0, _⟩ => show win2_3.index t (0 : Fin 2) * 128 + 1 * (y 0).val = (y 0).val; omega
    | ⟨1, _⟩ => show win2_3.index t (1 : Fin 2) * 40 + 1 * (y 1).val = (y 1).val; omega
  · intro y
    show V c main_v36 (((cfg2.win 4).blk t).view.emb y) = V c main_v36 y
    refine congrArg _ (funext fun ax => Fin.ext ?_)
    match ax with
    | ⟨0, _⟩ => show win2_4.index t (0 : Fin 2) * 1 + 1 * (y 0).val = (y 0).val; omega
    | ⟨1, _⟩ => show win2_4.index t (1 : Fin 2) * 40 + 1 * (y 1).val = (y 1).val; omega
  · show win2_5.index t (0 : Fin 2) * 4000 + 1 * (j 0).val = t.val * 4000 + (j 0).val; omega
  · show win2_5.index t (1 : Fin 2) * 40 + 1 * (j 1).val = (j 1).val; omega

/-- An index of the result array is in point `t`'s block iff each coordinate is in the block's range on its axis. -/
theorem mem_blk (t : Fin cfg2.N) (i : S100000x40.Idx) :
    i ∈ ((cfg2.win 5).blk t).view.set ↔ ∀ a : Fin 2, win2_5.index t a * S4000x40.size a ≤ (i a).val ∧ (i a).val < win2_5.index t a * S4000x40.size a + S4000x40.size a := by
  show i ∈ ((View.whole main_v37).slice (win2_5.rect t)).set ↔ _
  rw [View.set_slice_whole, Rect.mem_set_unit]
  exact Iff.rfl

/-- Every row of the result lies in the block of the point `row / 4000`. -/
theorem cover (i : S100000x40.Idx) : ∃ t : Fin cfg2.N, (cfg2.win 5).flush t = true ∧ i ∈ ((cfg2.win 5).blk t).view.set := by
  have hi0 : (i 0).val < 100000 := idx2_lt0 i
  have hi1 : (i 1).val < 40 := idx2_lt1 i
  have hN : cfg2.N = 25 := N_2
  let t : Fin cfg2.N := ⟨(i 0).val / 4000, by rw [hN]; omega⟩
  refine ⟨t, flush2_5 t, ?_⟩
  obtain ⟨e00, e01, e10, e11, e20, e21, e30, e31, e40, e41, e50, e51⟩ := idx_facts t
  have ht : t.val = (i 0).val / 4000 := rfl
  rw [mem_blk]
  intro a
  match a with
  | ⟨0, _⟩ => show win2_5.index t (0 : Fin 2) * 4000 ≤ (i 0).val ∧ (i 0).val < win2_5.index t (0 : Fin 2) * 4000 + 4000; omega
  | ⟨1, _⟩ => show win2_5.index t (1 : Fin 2) * 40 ≤ (i 1).val ∧ (i 1).val < win2_5.index t (1 : Fin 2) * 40 + 40; omega

/-- The result array after the region: the head of the arrays the region was entered with. -/
theorem final (c : Dev nD) :
    (dat2 V c).arrAt 5 cfg2.N = Cert.Gin.head (V c main_v18) (V c main_v33) (V c main_v34) (V c main_v35) (V c main_v36) :=
  (dat2 V c).arrAt_eq_of_cover 5 _ (fun t _ => flushed_eq V c t) cover

end Cert.KernelIdeal.Blk2

end
-- ==== Proof.Agg.lean ====
/-
  The neighbourhood aggregation both programs compute on the host, as one function.

  The edge list gives each edge a source node and a destination node; each edge carries a weight.  The aggregation
  of node features `h` gathers the source node's row for every edge (a negative source index wraps around once),
  scales it by the edge's weight, and adds it into the destination node's row of a zero array.  Both programs apply
  exactly these operations, so nothing about them is ever opened: equal features give equal aggregations.
-/
import proofs.«129248_j70411693850861_1_alg».proof.ReferenceIdeal
import proofs.«129248_j70411693850861_1_alg».proof.Proof.Gen.ReferenceIdeal
import Idealize.ShloMosaic.PureOps.Ideal

noncomputable section

namespace Cert.Gin

open Cert.ReferenceIdeal Cert.ReferenceIdeal.Gen Idealize.ShloMosaic Idealize.ShloMosaic.TcCoe

/-- The weighted sum, per destination node, of the source nodes' feature rows. -/
def agg (h : FVec Ideal S100000x128 .f32) (ei : IVec S2x1600000 32) (ew : FVec Ideal S1600000 .f32) :
    FVec Ideal S100000x128 .f32 :=
  Host.scatterAdd (F := Ideal) scatter_S100000x128_S1600000x1_S1600000x128_1_0_0_1 (broadcastInDim S100000x128 ![] bcast_S_S100000x128 (constant S_ .f32 0x00000000#32)) (broadcastInDim S1600000x1 ![0] bcast_S1600000_S1600000x1_0 (shapeCast _ (extractStridedSlice S1x1600000 ![1, 0] ei slices_S2x1600000_S1x1600000_1_0) shapeCasts_S1x1600000_S1600000)) (mulf (broadcastInDim S1600000x128 ![0, 1] bcast_S1600000x1_S1600000x128_0_1 (broadcastInDim S1600000x1 ![0] bcast_S1600000_S1600000x1_0 ew)) (Host.gather gather_S100000x128_S1600000x1_S1600000x128_1_0_n_n_0_1_1128 h (broadcastInDim S1600000x1 ![0] bcast_S1600000_S1600000x1_0 (select (cmpi .slt (shapeCast _ (extractStridedSlice S1x1600000 ![0, 0] ei slices_S2x1600000_S1x1600000_0_0) shapeCasts_S1x1600000_S1600000) (broadcastInDim S1600000 ![] bcast_S_S1600000 (constantI S_ 32 0#32))) (addi (shapeCast _ (extractStridedSlice S1x1600000 ![0, 0] ei slices_S2x1600000_S1x1600000_0_0) shapeCasts_S1x1600000_S1600000) (broadcastInDim S1600000 ![] bcast_S_S1600000 (constantI S_ 32 100000#32))) (shapeCast _ (extractStridedSlice S1x1600000 ![0, 0] ei slices_S2x1600000_S1x1600000_0_0) shapeCasts_S1x1600000_S1600000)))))

end Cert.Gin

end
-- ==== Proof.RefTerms.lean ====
/-
  The reference's three stretches as whole-array functions of what each stretch reads.

  • `aggSD` is the aggregation with the edge list already cut into its sources and destinations (the second layer
    reuses the cut the first layer made); `Cert.Gin.agg` is `aggSD` after the cut.
  • `layerR h a W b`: the host's matrix product of `h + a` with `W`, the bias broadcast over the rows, clamped at zero.
  • `headR u v M b`: the two layers' outputs joined along the feature axis, the host's product with the classifier's
    matrix, the bias, and the reference's log-softmax (row maximum, initial value −∞; subtract; exponentiate; row sum;
    logarithm; subtract).
-/
import proofs.«129248_j70411693850861_1_alg».proof.Proof.Agg

noncomputable section

namespace Cert.ReferenceIdeal.Terms

open Cert.ReferenceIdeal Cert.ReferenceIdeal.Gen Idealize.ShloMosaic Idealize.ShloMosaic.TcCoe

/-- The edges' source nodes: row 0 of the edge list. -/
def srcOf (ei : IVec S2x1600000 32) : IVec S1600000 32 :=
  shapeCast S1600000 (extractStridedSlice S1x1600000 ![0, 0] ei slices_S2x1600000_S1x1600000_0_0) shapeCasts_S1x1600000_S1600000

/-- The edges' destination nodes: row 1 of the edge list. -/
def dstOf (ei : IVec S2x1600000 32) : IVec S1600000 32 :=
  shapeCast S1600000 (extractStridedSlice S1x1600000 ![1, 0] ei slices_S2x1600000_S1x1600000_1_0) shapeCasts_S1x1600000_S1600000

/-- The aggregation over edges given as sources and destinations. -/
def aggSD (h : FVec Ideal S100000x128 .f32) (src dst : IVec S1600000 32) (ew : FVec Ideal S1600000 .f32) :
    FVec Ideal S100000x128 .f32 :=
  Host.scatterAdd (F := Ideal) scatter_S100000x128_S1600000x1_S1600000x128_1_0_0_1 (broadcastInDim S100000x128 ![] bcast_S_S100000x128 (constant S_ .f32 0x00000000#32)) (broadcastInDim S1600000x1 ![0] bcast_S1600000_S1600000x1_0 dst) (mulf (broadcastInDim S1600000x128 ![0, 1] bcast_S1600000x1_S1600000x128_0_1 (broadcastInDim S1600000x1 ![0] bcast_S1600000_S1600000x1_0 ew)) (Host.gather gather_S100000x128_S1600000x1_S1600000x128_1_0_n_n_0_1_1128 h (broadcastInDim S1600000x1 ![0] bcast_S1600000_S1600000x1_0 (select (cmpi .slt src (broadcastInDim S1600000 ![] bcast_S_S1600000 (constantI S_ 32 0#32))) (addi src (broadcastInDim S1600000 ![] bcast_S_S1600000 (constantI S_ 32 100000#32))) src))))

theorem agg_eq (h : FVec Ideal S100000x128 .f32) (ei : IVec S2x1600000 32) (ew : FVec Ideal S1600000 .f32) :
    Cert.Gin.agg h ei ew = aggSD h (srcOf ei) (dstOf ei) ew := rfl

/-- One layer on the host. -/
def layerR (h a : FVec Ideal S100000x128 .f32) (W : FVec Ideal S128x128 .f32) (b : FVec Ideal S128 .f32) :
    FVec Ideal S100000x128 .f32 :=
  maximumf
    (addf (Host.dotGeneral (F := Ideal) dot_S100000x128_S128x128_S100000x128_1_0_0_1_n_n none (addf h a) W)
      (broadcastInDim S100000x128 ![0, 1] bcast_S1x128_S100000x128_0_1 (broadcastInDim S1x128 ![1] bcast_S128_S1x128_1 b)))
    (broadcastInDim S100000x128 ![] bcast_S_S100000x128 (constant (F := Ideal) S_ .f32 0x00000000#32))

/-- The logits on the host. -/
def logitsR (u v : FVec Ideal S100000x128 .f32) (M : FVec Ideal S256x40 .f32) (b : FVec Ideal S40 .f32) :
    FVec Ideal S100000x40 .f32 :=
  addf
    (Host.dotGeneral (F := Ideal) dot_S100000x256_S256x40_S100000x40_1_0_0_1_n_n none
      (concatenate S100000x256 1 [⟨S100000x128, u⟩, ⟨S100000x128, v⟩] concatenates_S100000x128_S100000x128_S100000x256_d1) M)
    (broadcastInDim S100000x40 ![0, 1] bcast_S1x40_S100000x40_0_1 (broadcastInDim S1x40 ![1] bcast_S40_S1x40_1 b))

/-- The row maxima on the host, as the reference takes them: the reduction's result joined once more with its initial value. -/
def rowMaxR (z : FVec Ideal S100000x40 .f32) : FVec Ideal S100000 .f32 :=
  maximumf (broadcastInDim S100000 ![] bcast_S_S100000 (constant (F := Ideal) S_ .f32 0xFF800000#32))
    (Host.reduce FloatOps.maximumf z (constant (F := Ideal) S_ .f32 0xFF800000#32) reducesTo_S100000x40_S100000_d1 h_S_)

/-- The logits with their row maximum taken out. -/
def shiftR (z : FVec Ideal S100000x40 .f32) : FVec Ideal S100000x40 .f32 :=
  subf z (broadcastInDim S100000x40 ![0, 1] bcast_S100000x1_S100000x40_0_1
    (broadcastInDim S100000x1 ![0] bcast_S100000_S100000x1_0 (rowMaxR z)))

/-- The reference's log-softmax of the logits. -/
def normR (z : FVec Ideal S100000x40 .f32) : FVec Ideal S100000x40 .f32 :=
  subf (shiftR z)
    (broadcastInDim S100000x40 ![0, 1] bcast_S100000x1_S100000x40_0_1
      (Host.log (F := Ideal) (broadcastInDim S100000x1 ![0] bcast_S100000_S100000x1_0
        (Host.reduceAdd (F := Ideal) (Host.exp (F := Ideal) (shiftR z)) (constant (F := Ideal) S_ .f32 0x00000000#32)
          reducesTo_S100000x40_S100000_d1 h_S_))))

/-- The classifier head on the host. -/
def headR (u v : FVec Ideal S100000x128 .f32) (M : FVec Ideal S256x40 .f32) (b : FVec Ideal S40 .f32) :
    FVec Ideal S100000x40 .f32 :=
  normR (logitsR u v M b)

end Cert.ReferenceIdeal.Terms

end
-- ==== Proof.Boundaries.lean ====
/-
  The arrays each region is entered with, read back through the program to the launch memory.

  Between the regions the host only prepares operands: it cuts the edge list into sources and destinations,
  aggregates the current features over the edges (`Cert.Gin.agg`), reshapes a bias vector into a one-row matrix and
  cuts the classifier's matrix into its two halves.  A region changes its result array only.  So:
  • region 0 is entered with `x`, `agg x`, `W₁` and the row `b₁`;
  • region 1 with region 0's result `X₁`, `agg X₁`, `W₂` and the row `b₂`;
  • region 2 with `X₁`, region 1's result `X₂`, rows 0–127 and rows 128–255 of the classifier's matrix, and its bias row.
  Each host stretch is first evaluated from arbitrary contents `U`, so that nothing about the contents it starts from
  is ever opened.
-/
import proofs.«129248_j70411693850861_1_alg».proof.Proof.Gen.KernelIdeal.Frame
import proofs.«129248_j70411693850861_1_alg».proof.Proof.RefTerms

set_option maxRecDepth 16384

noncomputable section

namespace Cert.KernelIdeal.Bnd

open Cert.KernelIdeal Cert.KernelIdeal.Gen
open Idealize.ShloMosaic Idealize.ShloMosaic.TcCoe Idealize.SL.Sem Idealize.ShloMosaic.StableHlo
open Idealize.ShloMosaic.Pipeline (Dat)
open Cert.ReferenceIdeal.Terms (aggSD srcOf dstOf agg_eq)

/-! ## The three host stretches, from arbitrary contents -/

section Stretches

variable (U : Valuation τ sig (Elt Ideal))

set_option maxHeartbeats 4000000 in
theorem hostOps0_v16 : StableHlo.after hostOps0 U (Proc.devRef .tc main_v16)
    = Cert.Gin.agg (U (Proc.devRef .tc main_arg0)) (U (Proc.devRef .tc main_arg1)) (U (Proc.devRef .tc main_arg2)) := by
  after_results_simp <;> rfl
theorem hostOps0_v17 : StableHlo.after hostOps0 U (Proc.devRef .tc main_v17)
    = shapeCast S1x128 (U (Proc.devRef .tc main_arg4)) Gen.shapeCasts_S128_S1x128 := by
  after_results_simp <;> rfl
theorem hostOps0_v1 : StableHlo.after hostOps0 U (Proc.devRef .tc main_v1) = srcOf (U (Proc.devRef .tc main_arg1)) := by
  after_results_simp <;> rfl
theorem hostOps0_v3 : StableHlo.after hostOps0 U (Proc.devRef .tc main_v3) = dstOf (U (Proc.devRef .tc main_arg1)) := by
  after_results_simp <;> rfl
theorem hostOps0_main_arg0 : StableHlo.after hostOps0 U (Proc.devRef .tc main_arg0) = U (Proc.devRef .tc main_arg0) := by
  after_results_simp <;> rfl
theorem hostOps0_main_arg2 : StableHlo.after hostOps0 U (Proc.devRef .tc main_arg2) = U (Proc.devRef .tc main_arg2) := by
  after_results_simp <;> rfl
theorem hostOps0_main_arg3 : StableHlo.after hostOps0 U (Proc.devRef .tc main_arg3) = U (Proc.devRef .tc main_arg3) := by
  after_results_simp <;> rfl
theorem hostOps0_main_arg5 : StableHlo.after hostOps0 U (Proc.devRef .tc main_arg5) = U (Proc.devRef .tc main_arg5) := by
  after_results_simp <;> rfl
theorem hostOps0_main_arg6 : StableHlo.after hostOps0 U (Proc.devRef .tc main_arg6) = U (Proc.devRef .tc main_arg6) := by
  after_results_simp <;> rfl
theorem hostOps0_main_arg7 : StableHlo.after hostOps0 U (Proc.devRef .tc main_arg7) = U (Proc.devRef .tc main_arg7) := by
  after_results_simp <;> rfl
theorem hostOps0_main_arg8 : StableHlo.after hostOps0 U (Proc.devRef .tc main_arg8) = U (Proc.devRef .tc main_arg8) := by
  after_results_simp <;> rfl

set_option maxHeartbeats 4000000 in
theorem hostOps1_v31 : StableHlo.after hostOps1 U (Proc.devRef .tc main_v31)
    = aggSD (U (Proc.devRef .tc main_v18)) (U (Proc.devRef .tc main_v1)) (U (Proc.devRef .tc main_v3)) (U (Proc.devRef .tc main_arg2)) := by
  after_results_simp <;> rfl
theorem hostOps1_v32 : StableHlo.after hostOps1 U (Proc.devRef .tc main_v32)
    = shapeCast S1x128 (U (Proc.devRef .tc main_arg6)) Gen.shapeCasts_S128_S1x128 := by
  after_results_simp <;> rfl
theorem hostOps1_main_v18 : StableHlo.after hostOps1 U (Proc.devRef .tc main_v18) = U (Proc.devRef .tc main_v18) := by
  after_results_simp <;> rfl
theorem hostOps1_main_arg5 : StableHlo.after hostOps1 U (Proc.devRef .tc main_arg5) = U (Proc.devRef .tc main_arg5) := by
  after_results_simp <;> rfl
theorem hostOps1_main_arg7 : StableHlo.after hostOps1 U (Proc.devRef .tc main_arg7) = U (Proc.devRef .tc main_arg7) := by
  after_results_simp <;> rfl
theorem hostOps1_main_arg8 : StableHlo.after hostOps1 U (Proc.devRef .tc main_arg8) = U (Proc.devRef .tc main_arg8) := by
  after_results_simp <;> rfl

theorem hostOps2_v34 : StableHlo.after hostOps2 U (Proc.devRef .tc main_v34)
    = extractStridedSlice S128x40 ![0, 0] (U (Proc.devRef .tc main_arg7)) Gen.slices_S256x40_S128x40_0_0 := by
  after_results_simp <;> rfl
theorem hostOps2_v35 : StableHlo.after hostOps2 U (Proc.devRef .tc main_v35)
    = extractStridedSlice S128x40 ![128, 0] (U (Proc.devRef .tc main_arg7)) Gen.slices_S256x40_S128x40_128_0 := by
  after_results_simp <;> rfl
theorem hostOps2_v36 : StableHlo.after hostOps2 U (Proc.devRef .tc main_v36)
    = shapeCast S1x40 (U (Proc.devRef .tc main_arg8)) Gen.shapeCasts_S40_S1x40 := by
  after_results_simp <;> rfl
theorem hostOps2_main_v18 : StableHlo.after hostOps2 U (Proc.devRef .tc main_v18) = U (Proc.devRef .tc main_v18) := by
  after_results_simp <;> rfl
theorem hostOps2_main_v33 : StableHlo.after hostOps2 U (Proc.devRef .tc main_v33) = U (Proc.devRef .tc main_v33) := by
  after_results_simp <;> rfl

end Stretches

variable (m : (ℓ : Loc nD τ sig) → Buf (Elt Ideal) ℓ) (ρ : Dev nD → PrngReg)

/-! ## Region 0's operands -/

theorem V1_arg0 (c : Dev nD) : V1 m ρ c main_arg0 = (m ((c : Thread nD τ).loc main_arg0)) := hostOps0_main_arg0 (W0 m ρ c)

theorem V1_v16 (c : Dev nD) :
    V1 m ρ c main_v16 = Cert.Gin.agg (m ((c : Thread nD τ).loc main_arg0)) (m ((c : Thread nD τ).loc main_arg1)) (m ((c : Thread nD τ).loc main_arg2)) :=
  hostOps0_v16 (W0 m ρ c)

theorem V1_arg3 (c : Dev nD) : V1 m ρ c main_arg3 = (m ((c : Thread nD τ).loc main_arg3)) := hostOps0_main_arg3 (W0 m ρ c)

theorem V1_v17 (c : Dev nD) :
    V1 m ρ c main_v17 = shapeCast S1x128 (m ((c : Thread nD τ).loc main_arg4)) Gen.shapeCasts_S128_S1x128 :=
  hostOps0_v17 (W0 m ρ c)

/-! ## What region 0 leaves untouched, at its exit -/

theorem W2_v1 (c : Dev nD) : W2 m ρ c (Proc.devRef .tc main_v1) = srcOf (m ((c : Thread nD τ).loc main_arg1)) :=
  (W2_of_ne m ρ c main_v1 (by decide)).trans (hostOps0_v1 (W0 m ρ c))
theorem W2_v3 (c : Dev nD) : W2 m ρ c (Proc.devRef .tc main_v3) = dstOf (m ((c : Thread nD τ).loc main_arg1)) :=
  (W2_of_ne m ρ c main_v3 (by decide)).trans (hostOps0_v3 (W0 m ρ c))
theorem W2_main_arg2 (c : Dev nD) : W2 m ρ c (Proc.devRef .tc main_arg2) = (m ((c : Thread nD τ).loc main_arg2)) :=
  (W2_of_ne m ρ c main_arg2 (by decide)).trans (hostOps0_main_arg2 (W0 m ρ c))
theorem W2_main_arg5 (c : Dev nD) : W2 m ρ c (Proc.devRef .tc main_arg5) = (m ((c : Thread nD τ).loc main_arg5)) :=
  (W2_of_ne m ρ c main_arg5 (by decide)).trans (hostOps0_main_arg5 (W0 m ρ c))
theorem W2_main_arg6 (c : Dev nD) : W2 m ρ c (Proc.devRef .tc main_arg6) = (m ((c : Thread nD τ).loc main_arg6)) :=
  (W2_of_ne m ρ c main_arg6 (by decide)).trans (hostOps0_main_arg6 (W0 m ρ c))
theorem W2_main_arg7 (c : Dev nD) : W2 m ρ c (Proc.devRef .tc main_arg7) = (m ((c : Thread nD τ).loc main_arg7)) :=
  (W2_of_ne m ρ c main_arg7 (by decide)).trans (hostOps0_main_arg7 (W0 m ρ c))
theorem W2_main_arg8 (c : Dev nD) : W2 m ρ c (Proc.devRef .tc main_arg8) = (m ((c : Thread nD τ).loc main_arg8)) :=
  (W2_of_ne m ρ c main_arg8 (by decide)).trans (hostOps0_main_arg8 (W0 m ρ c))

/-! ## Region 1's operands -/

/-- Region 0's result array: what its write-backs leave. -/
abbrev X1 (c : Dev nD) := (dat0 (V1 m ρ) c).arrAt 4 cfg0.N

theorem W2_v18 (c : Dev nD) : W2 m ρ c (Proc.devRef .tc main_v18) = X1 m ρ c := W2_arr m ρ c 4

theorem V3_v18 (c : Dev nD) : V3 m ρ c main_v18 = X1 m ρ c :=
  (hostOps1_main_v18 (W2 m ρ c)).trans (W2_v18 m ρ c)

theorem V3_v31 (c : Dev nD) :
    V3 m ρ c main_v31 = Cert.Gin.agg (X1 m ρ c) (m ((c : Thread nD τ).loc main_arg1)) (m ((c : Thread nD τ).loc main_arg2)) :=
  (hostOps1_v31 (W2 m ρ c)).trans (by
    rw [W2_v18 m ρ c, W2_v1 m ρ c, W2_v3 m ρ c, W2_main_arg2 m ρ c]
    exact (agg_eq _ _ _).symm)

theorem V3_arg5 (c : Dev nD) : V3 m ρ c main_arg5 = (m ((c : Thread nD τ).loc main_arg5)) :=
  (hostOps1_main_arg5 (W2 m ρ c)).trans (W2_main_arg5 m ρ c)

theorem V3_v32 (c : Dev nD) :
    V3 m ρ c main_v32 = shapeCast S1x128 (m ((c : Thread nD τ).loc main_arg6)) Gen.shapeCasts_S128_S1x128 :=
  (hostOps1_v32 (W2 m ρ c)).trans (by rw [W2_main_arg6 m ρ c])

/-! ## What region 1 leaves untouched, at its exit -/

theorem W4_arg7 (c : Dev nD) : W4 m ρ c (Proc.devRef .tc main_arg7) = (m ((c : Thread nD τ).loc main_arg7)) :=
  (W4_of_ne m ρ c main_arg7 (by decide)).trans ((hostOps1_main_arg7 (W2 m ρ c)).trans (W2_main_arg7 m ρ c))

theorem W4_arg8 (c : Dev nD) : W4 m ρ c (Proc.devRef .tc main_arg8) = (m ((c : Thread nD τ).loc main_arg8)) :=
  (W4_of_ne m ρ c main_arg8 (by decide)).trans ((hostOps1_main_arg8 (W2 m ρ c)).trans (W2_main_arg8 m ρ c))

/-- Region 1 reads region 0's result through an input window and leaves it as it found it. -/
theorem W4_v18 (c : Dev nD) : W4 m ρ c (Proc.devRef .tc main_v18) = X1 m ρ c :=
  (W4_arr m ρ c 0).trans (((dat1 (V3 m ρ) c).arrAt_in 0 rfl _).trans ((A_eq1 (V3 m ρ) c 0).trans (V3_v18 m ρ c)))

/-! ## Region 2's operands -/

/-- Region 1's result array: what its write-backs leave. -/
abbrev X2 (c : Dev nD) := (dat1 (V3 m ρ) c).arrAt 4 cfg1.N

theorem V5_v18 (c : Dev nD) : V5 m ρ c main_v18 = X1 m ρ c :=
  (hostOps2_main_v18 (W4 m ρ c)).trans (W4_v18 m ρ c)

theorem V5_v33 (c : Dev nD) : V5 m ρ c main_v33 = X2 m ρ c :=
  (hostOps2_main_v33 (W4 m ρ c)).trans (W4_arr m ρ c 4)

theorem V5_v34 (c : Dev nD) :
    V5 m ρ c main_v34 = extractStridedSlice S128x40 ![0, 0] (m ((c : Thread nD τ).loc main_arg7)) Gen.slices_S256x40_S128x40_0_0 :=
  (hostOps2_v34 (W4 m ρ c)).trans (by rw [W4_arg7 m ρ c])

theorem V5_v35 (c : Dev nD) :
    V5 m ρ c main_v35 = extractStridedSlice S128x40 ![128, 0] (m ((c : Thread nD τ).loc main_arg7)) Gen.slices_S256x40_S128x40_128_0 :=
  (hostOps2_v35 (W4 m ρ c)).trans (by rw [W4_arg7 m ρ c])

theorem V5_v36 (c : Dev nD) :
    V5 m ρ c main_v36 = shapeCast S1x40 (m ((c : Thread nD τ).loc main_arg8)) Gen.shapeCasts_S40_S1x40 :=
  (hostOps2_v36 (W4 m ρ c)).trans (by rw [W4_arg8 m ρ c])

end Cert.KernelIdeal.Bnd

end
-- ==== Proof.Net.lean ====
/-
  The whole network as one function of the argument arrays.

  Two layers, each over the aggregation of its own input, and the classifier head over both layers' outputs.
  The bias vectors enter as one-row matrices and the classifier's matrix as its two halves: the forms both programs
  can be brought to.
-/
import proofs.«129248_j70411693850861_1_alg».proof.Proof.Spec
import proofs.«129248_j70411693850861_1_alg».proof.Proof.Agg

noncomputable section

namespace Cert.Gin

open Idealize.ShloMosaic Idealize.ShloMosaic.TcCoe Cert.ReferenceIdeal

/-- The first layer's output. -/
def out1 (x : FVec Ideal S100000x128 .f32) (ei : IVec S2x1600000 32) (ew : FVec Ideal S1600000 .f32)
    (W1 : FVec Ideal S128x128 .f32) (b1 : FVec Ideal S1x128 .f32) : FVec Ideal S100000x128 .f32 :=
  layer x (agg x ei ew) W1 b1

/-- The network's output: log-probabilities per node and class. -/
def net (x : FVec Ideal S100000x128 .f32) (ei : IVec S2x1600000 32) (ew : FVec Ideal S1600000 .f32)
    (W1 : FVec Ideal S128x128 .f32) (b1 : FVec Ideal S1x128 .f32) (W2 : FVec Ideal S128x128 .f32) (b2 : FVec Ideal S1x128 .f32)
    (A B : FVec Ideal ⟨2, ![128, 40]⟩ .f32) (b : FVec Ideal S1x40 .f32) : FVec Ideal S100000x40 .f32 :=
  head (out1 x ei ew W1 b1) (out1 (out1 x ei ew W1 b1) ei ew W2 b2) A B b

end Cert.Gin

end
-- ==== Proof.KernelValue.lean ====
/-
  The idealized kernel's result array is the network of the argument arrays.

  Region by region: each region's result array is its body's function of the arrays the region was entered with
  (the blocks tile the array), and those arrays are, read back through the host operations, the arguments, the
  aggregation of the previous features, and the previous regions' results.
-/
import proofs.«129248_j70411693850861_1_alg».proof.Proof.KernelRun
import proofs.«129248_j70411693850861_1_alg».proof.Proof.Blocks0
import proofs.«129248_j70411693850861_1_alg».proof.Proof.Blocks1
import proofs.«129248_j70411693850861_1_alg».proof.Proof.Blocks2
import proofs.«129248_j70411693850861_1_alg».proof.Proof.Boundaries
import proofs.«129248_j70411693850861_1_alg».proof.Proof.Net

set_option maxRecDepth 16384

noncomputable section

namespace Cert.KernelIdeal.ValueH

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-- The bias vectors as one-row matrices and the classifier's matrix as its two halves, as the kernel's host side makes them. -/
abbrev b1r (c : Dev nD) := shapeCast S1x128 (m ((c : Thread nD τ).loc main_arg4)) Gen.shapeCasts_S128_S1x128
abbrev b2r (c : Dev nD) := shapeCast S1x128 (m ((c : Thread nD τ).loc main_arg6)) Gen.shapeCasts_S128_S1x128
abbrev bfr (c : Dev nD) := shapeCast S1x40 (m ((c : Thread nD τ).loc main_arg8)) Gen.shapeCasts_S40_S1x40
abbrev MA (c : Dev nD) := extractStridedSlice S128x40 ![0, 0] (m ((c : Thread nD τ).loc main_arg7)) Gen.slices_S256x40_S128x40_0_0
abbrev MB (c : Dev nD) := extractStridedSlice S128x40 ![128, 0] (m ((c : Thread nD τ).loc main_arg7)) Gen.slices_S256x40_S128x40_128_0

/-- Region 0's result: the first layer's output. -/
theorem X1_eq (c : Dev nD) :
    Cert.KernelIdeal.Bnd.X1 m ρ c = Cert.Gin.out1 (m ((c : Thread nD τ).loc main_arg0)) (m ((c : Thread nD τ).loc main_arg1)) (m ((c : Thread nD τ).loc main_arg2)) (m ((c : Thread nD τ).loc main_arg3)) (b1r m c) :=
  (Cert.KernelIdeal.Blk0.final (V1 m ρ) c).trans (by
    rw [Cert.KernelIdeal.Bnd.V1_arg0, Cert.KernelIdeal.Bnd.V1_v16, Cert.KernelIdeal.Bnd.V1_arg3, Cert.KernelIdeal.Bnd.V1_v17]
    rfl)

/-- Region 1's result: the second layer's output. -/
theorem X2_eq (c : Dev nD) :
    Cert.KernelIdeal.Bnd.X2 m ρ c = Cert.Gin.out1 (Cert.KernelIdeal.Bnd.X1 m ρ c) (m ((c : Thread nD τ).loc main_arg1)) (m ((c : Thread nD τ).loc main_arg2)) (m ((c : Thread nD τ).loc main_arg5)) (b2r m c) :=
  (Cert.KernelIdeal.Blk1.final (V3 m ρ) c).trans (by
    rw [Cert.KernelIdeal.Bnd.V3_v18, Cert.KernelIdeal.Bnd.V3_v31, Cert.KernelIdeal.Bnd.V3_arg5, Cert.KernelIdeal.Bnd.V3_v32]
    rfl)

/-- The result buffer's contents at the last boundary: the network of the arguments. -/
theorem result_eq (c : Dev nD) :
    W6 m ρ c (Proc.devRef .tc main_v37)
      = Cert.Gin.net (m ((c : Thread nD τ).loc main_arg0)) (m ((c : Thread nD τ).loc main_arg1)) (m ((c : Thread nD τ).loc main_arg2)) (m ((c : Thread nD τ).loc main_arg3)) (b1r m c) (m ((c : Thread nD τ).loc main_arg5)) (b2r m c)
          (MA m c) (MB m c) (bfr m c) :=
  (W6_arr m ρ c 5).trans ((Cert.KernelIdeal.Blk2.final (V5 m ρ) c).trans (by
    rw [Cert.KernelIdeal.Bnd.V5_v18, Cert.KernelIdeal.Bnd.V5_v33, Cert.KernelIdeal.Bnd.V5_v34, Cert.KernelIdeal.Bnd.V5_v35,
      Cert.KernelIdeal.Bnd.V5_v36, X2_eq, X1_eq]
    rfl))

/-- Every weakly fair execution of the idealized kernel terminates, without a fault, with the result array at the
    network of the argument arrays and the argument arrays unchanged. -/
theorem run : θ_run defs (onTc (τ := τ) (main (F := Ideal))) ⟨m, fun _ => 0, ρ⟩ (fun r => ∀ c : Dev nD,
      r.2.mem ((c.tc : Thread nD τ).loc main_v37)
        = Cert.Gin.net (m ((c : Thread nD τ).loc main_arg0)) (m ((c : Thread nD τ).loc main_arg1)) (m ((c : Thread nD τ).loc main_arg2)) (m ((c : Thread nD τ).loc main_arg3)) (b1r m c) (m ((c : Thread nD τ).loc main_arg5)) (b2r m c)
            (MA m c) (MB m c) (bfr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (result_eq m ρ c), (h c).2⟩)
    (Cert.KernelIdeal.RunV.run_result (F := Ideal) m ρ)

end Cert.KernelIdeal.ValueH

end
-- ==== Proof.RefRun.lean ====
/-
  The reference program's run, kept as a fold.

  The reference is a straight line of 72 host operations.  Every weakly fair execution of it terminates, and every
  buffer ends at the fold of the operations' results over the launch memory.  The line is cut into three stretches —
  the first layer (28 operations, ending at its clamped output), the second layer (24 operations, likewise) and the
  classifier head (20 operations) — so that each stretch can be evaluated from ANY starting contents, the earlier
  stretches' results entering as unopened values.  The argument arrays are written by no operation.
-/
import proofs.«129248_j70411693850861_1_alg».proof.Proof.Gen.ReferenceIdeal
import Idealize.ShloMosaic.Lib.StableHlo.Run

noncomputable section

namespace Cert.ReferenceIdeal.Fold

open Cert.ReferenceIdeal Cert.ReferenceIdeal.Gen Idealize.ShloMosaic Idealize.ShloMosaic.TcCoe Idealize.SL.Sem Idealize.ShloMosaic.StableHlo

variable {F : FTy → Type} [FloatOps F]

/-- The first layer's operations. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    unary main_arg2 main_v4 (broadcastInDim S1600000x1 ![0] bcast_S1600000_S1600000x1_0 : (⟨S1600000, .f32⟩ : BufTy).Contents (Elt F) → (⟨S1600000x1, .f32⟩ : BufTy).Contents (Elt F)),
    nullary main_c (constantI S_ 32 0#32),
    unary main_c main_v5 (broadcastInDim S1600000 ![] bcast_S_S1600000 : (⟨S_, .i32⟩ : BufTy).Contents (Elt F) → (⟨S1600000, .i32⟩ : BufTy).Contents (Elt F)),
    binary main_v1 main_v5 main_v6 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v7 (broadcastInDim S1600000 ![] bcast_S_S1600000 : (⟨S_, .i32⟩ : BufTy).Contents (Elt F) → (⟨S1600000, .i32⟩ : BufTy).Contents (Elt F)),
    binary main_v1 main_v7 main_v8 (addi : (⟨S1600000, .i32⟩ : BufTy).Contents (Elt F) → (⟨S1600000, .i32⟩ : BufTy).Contents (Elt F) → (⟨S1600000, .i32⟩ : BufTy).Contents (Elt F)),
    ternary main_v6 main_v8 main_v1 main_v9 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v9 main_v10 (broadcastInDim S1600000x1 ![0] bcast_S1600000_S1600000x1_0 : (⟨S1600000, .i32⟩ : BufTy).Contents (Elt F) → (⟨S1600000x1, .i32⟩ : BufTy).Contents (Elt F)),
    binary main_arg0 main_v10 main_v11 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v4 main_v12 (broadcastInDim S1600000x128 ![0, 1] bcast_S1600000x1_S1600000x128_0_1 : (⟨S1600000x1, .f32⟩ : BufTy).Contents (Elt F) → (⟨S1600000x128, .f32⟩ : BufTy).Contents (Elt F)),
    binary main_v12 main_v11 main_v13 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v14 (broadcastInDim S100000x128 ![] bcast_S_S100000x128 : (⟨S_, .f32⟩ : BufTy).Contents (Elt F) → (⟨S100000x128, .f32⟩ : BufTy).Contents (Elt F)),
    unary main_v3 main_v15 (broadcastInDim S1600000x1 ![0] bcast_S1600000_S1600000x1_0 : (⟨S1600000, .i32⟩ : BufTy).Contents (Elt F) → (⟨S1600000x1, .i32⟩ : BufTy).Contents (Elt F)),
    ternary main_v14 main_v15 main_v13 main_v16 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_arg0 main_v16 main_v17 (addf : (⟨S100000x128, .f32⟩ : BufTy).Contents (Elt F) → (⟨S100000x128, .f32⟩ : BufTy).Contents (Elt F) → (⟨S100000x128, .f32⟩ : BufTy).Contents (Elt F)),
    binary main_v17 main_arg3 main_v18 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v19 (broadcastInDim S1x128 ![1] bcast_S128_S1x128_1 : (⟨S128, .f32⟩ : BufTy).Contents (Elt F) → (⟨S1x128, .f32⟩ : BufTy).Contents (Elt F)),
    unary main_v19 main_v20 (broadcastInDim S100000x128 ![0, 1] bcast_S1x128_S100000x128_0_1 : (⟨S1x128, .f32⟩ : BufTy).Contents (Elt F) → (⟨S100000x128, .f32⟩ : BufTy).Contents (Elt F)),
    binary main_v18 main_v20 main_v21 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v21) (TRef.of (T := ⟨S100000x128, .f32⟩) main_call0_v0) (TRef.of (T := ⟨S100000x128, .f32⟩) main_v22) maximumf ]

/-- The second layer's operations. -/
abbrev opsB : List (HloOp τ sig (Elt F)) :=
  [ unary main_arg2 main_v23 (broadcastInDim S1600000x1 ![0] bcast_S1600000_S1600000x1_0 : (⟨S1600000, .f32⟩ : BufTy).Contents (Elt F) → (⟨S1600000x1, .f32⟩ : BufTy).Contents (Elt F)),
    nullary main_c_1 (constantI S_ 32 0#32),
    unary main_c_1 main_v24 (broadcastInDim S1600000 ![] bcast_S_S1600000 : (⟨S_, .i32⟩ : BufTy).Contents (Elt F) → (⟨S1600000, .i32⟩ : BufTy).Contents (Elt F)),
    binary main_v1 main_v24 main_v25 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v26 (broadcastInDim S1600000 ![] bcast_S_S1600000 : (⟨S_, .i32⟩ : BufTy).Contents (Elt F) → (⟨S1600000, .i32⟩ : BufTy).Contents (Elt F)),
    binary main_v1 main_v26 main_v27 (addi : (⟨S1600000, .i32⟩ : BufTy).Contents (Elt F) → (⟨S1600000, .i32⟩ : BufTy).Contents (Elt F) → (⟨S1600000, .i32⟩ : BufTy).Contents (Elt F)),
    ternary main_v25 main_v27 main_v1 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v28 main_v29 (broadcastInDim S1600000x1 ![0] bcast_S1600000_S1600000x1_0 : (⟨S1600000, .i32⟩ : BufTy).Contents (Elt F) → (⟨S1600000x1, .i32⟩ : BufTy).Contents (Elt F)),
    binary main_v22 main_v29 main_v30 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v23 main_v31 (broadcastInDim S1600000x128 ![0, 1] bcast_S1600000x1_S1600000x128_0_1 : (⟨S1600000x1, .f32⟩ : BufTy).Contents (Elt F) → (⟨S1600000x128, .f32⟩ : BufTy).Contents (Elt F)),
    binary main_v31 main_v30 main_v32 (mulf : (⟨S1600000x128, .f32⟩ : BufTy).Contents (Elt F) → (⟨S1600000x128, .f32⟩ : BufTy).Contents (Elt F) → (⟨S1600000x128, .f32⟩ : BufTy).Contents (Elt F)),
    nullary main_cst_3 (constant S_ .f32 0x00000000#32),
    unary main_cst_3 main_v33 (broadcastInDim S100000x128 ![] bcast_S_S100000x128 : (⟨S_, .f32⟩ : BufTy).Contents (Elt F) → (⟨S100000x128, .f32⟩ : BufTy).Contents (Elt F)),
    unary main_v3 main_v34 (broadcastInDim S1600000x1 ![0] bcast_S1600000_S1600000x1_0 : (⟨S1600000, .i32⟩ : BufTy).Contents (Elt F) → (⟨S1600000x1, .i32⟩ : BufTy).Contents (Elt F)),
    ternary main_v33 main_v34 main_v32 main_v35 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v22 main_v35 main_v36 (addf : (⟨S100000x128, .f32⟩ : BufTy).Contents (Elt F) → (⟨S100000x128, .f32⟩ : BufTy).Contents (Elt F) → (⟨S100000x128, .f32⟩ : BufTy).Contents (Elt F)),
    binary main_v36 main_arg5 main_v37 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v38 (broadcastInDim S1x128 ![1] bcast_S128_S1x128_1 : (⟨S128, .f32⟩ : BufTy).Contents (Elt F) → (⟨S1x128, .f32⟩ : BufTy).Contents (Elt F)),
    unary main_v38 main_v39 (broadcastInDim S100000x128 ![0, 1] bcast_S1x128_S100000x128_0_1 : (⟨S1x128, .f32⟩ : BufTy).Contents (Elt F) → (⟨S100000x128, .f32⟩ : BufTy).Contents (Elt F)),
    binary main_v37 main_v39 main_v40 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v40) (TRef.of (T := ⟨S100000x128, .f32⟩) main_call1_v0) (TRef.of (T := ⟨S100000x128, .f32⟩) main_v41) maximumf ]

/-- The classifier head's operations. -/
abbrev opsC : List (HloOp τ sig (Elt F)) :=
  [ binary main_v22 main_v41 main_v42 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    binary main_v42 main_arg7 main_v43 ((fun l r => Host.dotGeneral dot_S100000x256_S256x40_S100000x40_1_0_0_1_n_n none l r) : (⟨S100000x256, .f32⟩ : BufTy).Contents (Elt F) → (⟨S256x40, .f32⟩ : BufTy).Contents (Elt F) → (⟨S100000x40, .f32⟩ : BufTy).Contents (Elt F)),
    unary main_arg8 main_v44 (broadcastInDim S1x40 ![1] bcast_S40_S1x40_1 : (⟨S40, .f32⟩ : BufTy).Contents (Elt F) → (⟨S1x40, .f32⟩ : BufTy).Contents (Elt F)),
    unary main_v44 main_v45 (broadcastInDim S100000x40 ![0, 1] bcast_S1x40_S100000x40_0_1 : (⟨S1x40, .f32⟩ : BufTy).Contents (Elt F) → (⟨S100000x40, .f32⟩ : BufTy).Contents (Elt F)),
    binary main_v43 main_v45 main_v46 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call2_cst) (constant S_ .f32 0xFF800000#32),
    TRef.binary (TRef.of (T := ⟨S100000x40, .f32⟩) main_v46) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v46) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v47) subf ]

/-- The whole line. -/
abbrev ops : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    unary main_arg2 main_v4 (broadcastInDim S1600000x1 ![0] bcast_S1600000_S1600000x1_0 : (⟨S1600000, .f32⟩ : BufTy).Contents (Elt F) → (⟨S1600000x1, .f32⟩ : BufTy).Contents (Elt F)),
    nullary main_c (constantI S_ 32 0#32),
    unary main_c main_v5 (broadcastInDim S1600000 ![] bcast_S_S1600000 : (⟨S_, .i32⟩ : BufTy).Contents (Elt F) → (⟨S1600000, .i32⟩ : BufTy).Contents (Elt F)),
    binary main_v1 main_v5 main_v6 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v7 (broadcastInDim S1600000 ![] bcast_S_S1600000 : (⟨S_, .i32⟩ : BufTy).Contents (Elt F) → (⟨S1600000, .i32⟩ : BufTy).Contents (Elt F)),
    binary main_v1 main_v7 main_v8 (addi : (⟨S1600000, .i32⟩ : BufTy).Contents (Elt F) → (⟨S1600000, .i32⟩ : BufTy).Contents (Elt F) → (⟨S1600000, .i32⟩ : BufTy).Contents (Elt F)),
    ternary main_v6 main_v8 main_v1 main_v9 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v9 main_v10 (broadcastInDim S1600000x1 ![0] bcast_S1600000_S1600000x1_0 : (⟨S1600000, .i32⟩ : BufTy).Contents (Elt F) → (⟨S1600000x1, .i32⟩ : BufTy).Contents (Elt F)),
    binary main_arg0 main_v10 main_v11 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v4 main_v12 (broadcastInDim S1600000x128 ![0, 1] bcast_S1600000x1_S1600000x128_0_1 : (⟨S1600000x1, .f32⟩ : BufTy).Contents (Elt F) → (⟨S1600000x128, .f32⟩ : BufTy).Contents (Elt F)),
    binary main_v12 main_v11 main_v13 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v14 (broadcastInDim S100000x128 ![] bcast_S_S100000x128 : (⟨S_, .f32⟩ : BufTy).Contents (Elt F) → (⟨S100000x128, .f32⟩ : BufTy).Contents (Elt F)),
    unary main_v3 main_v15 (broadcastInDim S1600000x1 ![0] bcast_S1600000_S1600000x1_0 : (⟨S1600000, .i32⟩ : BufTy).Contents (Elt F) → (⟨S1600000x1, .i32⟩ : BufTy).Contents (Elt F)),
    ternary main_v14 main_v15 main_v13 main_v16 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_arg0 main_v16 main_v17 (addf : (⟨S100000x128, .f32⟩ : BufTy).Contents (Elt F) → (⟨S100000x128, .f32⟩ : BufTy).Contents (Elt F) → (⟨S100000x128, .f32⟩ : BufTy).Contents (Elt F)),
    binary main_v17 main_arg3 main_v18 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg4 main_v19 (broadcastInDim S1x128 ![1] bcast_S128_S1x128_1 : (⟨S128, .f32⟩ : BufTy).Contents (Elt F) → (⟨S1x128, .f32⟩ : BufTy).Contents (Elt F)),
    unary main_v19 main_v20 (broadcastInDim S100000x128 ![0, 1] bcast_S1x128_S100000x128_0_1 : (⟨S1x128, .f32⟩ : BufTy).Contents (Elt F) → (⟨S100000x128, .f32⟩ : BufTy).Contents (Elt F)),
    binary main_v18 main_v20 main_v21 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v21) (TRef.of (T := ⟨S100000x128, .f32⟩) main_call0_v0) (TRef.of (T := ⟨S100000x128, .f32⟩) main_v22) maximumf,
    unary main_arg2 main_v23 (broadcastInDim S1600000x1 ![0] bcast_S1600000_S1600000x1_0 : (⟨S1600000, .f32⟩ : BufTy).Contents (Elt F) → (⟨S1600000x1, .f32⟩ : BufTy).Contents (Elt F)),
    nullary main_c_1 (constantI S_ 32 0#32),
    unary main_c_1 main_v24 (broadcastInDim S1600000 ![] bcast_S_S1600000 : (⟨S_, .i32⟩ : BufTy).Contents (Elt F) → (⟨S1600000, .i32⟩ : BufTy).Contents (Elt F)),
    binary main_v1 main_v24 main_v25 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v26 (broadcastInDim S1600000 ![] bcast_S_S1600000 : (⟨S_, .i32⟩ : BufTy).Contents (Elt F) → (⟨S1600000, .i32⟩ : BufTy).Contents (Elt F)),
    binary main_v1 main_v26 main_v27 (addi : (⟨S1600000, .i32⟩ : BufTy).Contents (Elt F) → (⟨S1600000, .i32⟩ : BufTy).Contents (Elt F) → (⟨S1600000, .i32⟩ : BufTy).Contents (Elt F)),
    ternary main_v25 main_v27 main_v1 main_v28 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v28 main_v29 (broadcastInDim S1600000x1 ![0] bcast_S1600000_S1600000x1_0 : (⟨S1600000, .i32⟩ : BufTy).Contents (Elt F) → (⟨S1600000x1, .i32⟩ : BufTy).Contents (Elt F)),
    binary main_v22 main_v29 main_v30 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v23 main_v31 (broadcastInDim S1600000x128 ![0, 1] bcast_S1600000x1_S1600000x128_0_1 : (⟨S1600000x1, .f32⟩ : BufTy).Contents (Elt F) → (⟨S1600000x128, .f32⟩ : BufTy).Contents (Elt F)),
    binary main_v31 main_v30 main_v32 (mulf : (⟨S1600000x128, .f32⟩ : BufTy).Contents (Elt F) → (⟨S1600000x128, .f32⟩ : BufTy).Contents (Elt F) → (⟨S1600000x128, .f32⟩ : BufTy).Contents (Elt F)),
    nullary main_cst_3 (constant S_ .f32 0x00000000#32),
    unary main_cst_3 main_v33 (broadcastInDim S100000x128 ![] bcast_S_S100000x128 : (⟨S_, .f32⟩ : BufTy).Contents (Elt F) → (⟨S100000x128, .f32⟩ : BufTy).Contents (Elt F)),
    unary main_v3 main_v34 (broadcastInDim S1600000x1 ![0] bcast_S1600000_S1600000x1_0 : (⟨S1600000, .i32⟩ : BufTy).Contents (Elt F) → (⟨S1600000x1, .i32⟩ : BufTy).Contents (Elt F)),
    ternary main_v33 main_v34 main_v32 main_v35 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    binary main_v22 main_v35 main_v36 (addf : (⟨S100000x128, .f32⟩ : BufTy).Contents (Elt F) → (⟨S100000x128, .f32⟩ : BufTy).Contents (Elt F) → (⟨S100000x128, .f32⟩ : BufTy).Contents (Elt F)),
    binary main_v36 main_arg5 main_v37 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg6 main_v38 (broadcastInDim S1x128 ![1] bcast_S128_S1x128_1 : (⟨S128, .f32⟩ : BufTy).Contents (Elt F) → (⟨S1x128, .f32⟩ : BufTy).Contents (Elt F)),
    unary main_v38 main_v39 (broadcastInDim S100000x128 ![0, 1] bcast_S1x128_S100000x128_0_1 : (⟨S1x128, .f32⟩ : BufTy).Contents (Elt F) → (⟨S100000x128, .f32⟩ : BufTy).Contents (Elt F)),
    binary main_v37 main_v39 main_v40 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v40) (TRef.of (T := ⟨S100000x128, .f32⟩) main_call1_v0) (TRef.of (T := ⟨S100000x128, .f32⟩) main_v41) maximumf,
    binary main_v22 main_v41 main_v42 ((fun a b => concatenate S100000x256 1 [⟨S100000x128, a⟩, ⟨S100000x128, b⟩] concatenates_S100000x128_S100000x128_S100000x256_d1) : (⟨S100000x128, .f32⟩ : BufTy).Contents (Elt F) → (⟨S100000x128, .f32⟩ : BufTy).Contents (Elt F) → (⟨S100000x256, .f32⟩ : BufTy).Contents (Elt F)),
    binary main_v42 main_arg7 main_v43 ((fun l r => Host.dotGeneral dot_S100000x256_S256x40_S100000x40_1_0_0_1_n_n none l r) : (⟨S100000x256, .f32⟩ : BufTy).Contents (Elt F) → (⟨S256x40, .f32⟩ : BufTy).Contents (Elt F) → (⟨S100000x40, .f32⟩ : BufTy).Contents (Elt F)),
    unary main_arg8 main_v44 (broadcastInDim S1x40 ![1] bcast_S40_S1x40_1 : (⟨S40, .f32⟩ : BufTy).Contents (Elt F) → (⟨S1x40, .f32⟩ : BufTy).Contents (Elt F)),
    unary main_v44 main_v45 (broadcastInDim S100000x40 ![0, 1] bcast_S1x40_S100000x40_0_1 : (⟨S1x40, .f32⟩ : BufTy).Contents (Elt F) → (⟨S100000x40, .f32⟩ : BufTy).Contents (Elt F)),
    binary main_v43 main_v45 main_v46 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call2_cst) (constant S_ .f32 0xFF800000#32),
    TRef.binary (TRef.of (T := ⟨S100000x40, .f32⟩) main_v46) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v46) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v47) subf ]

theorem ops_split : (ops : List (HloOp τ sig (Elt F))) = opsA ++ (opsB ++ opsC) := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., reshape_bufs_sub .., unary_bufs_sub .., reshape_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., binary_bufs_sub .., binary_bufs_sub .., unary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- The contents after two stretches run one after the other. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

set_option maxRecDepth 8192 in
set_option maxHeartbeats 28800000 in
/-- Every weakly fair execution terminates with the result at the fold of the line over the launch memory and the
    argument arrays unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47) = after ops (launchContents m c) (Proc.devRef .tc main_v47)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨h c main_v47,
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl)⟩)
    (run_seq scopedRefs_eq scopedSems_eq defs main (fun _ => ops) main_eq (fun _ => ops_sub) m ρ)

end Cert.ReferenceIdeal.Fold

end
-- ==== Proof.RefStages.lean ====
/-
  The reference's fold evaluated stretch by stretch.

  Each stretch is evaluated from arbitrary starting contents `U`, so the earlier stretches' results enter as
  unopened values: the first stretch leaves the first layer's output (and the cut edge list) as functions of the
  arguments, the second leaves the second layer's output as a function of the first's, the third leaves the head of
  both.  Composed, the result buffer ends at `headR X₁ X₂ M b` with `X₁ = layerR x (agg x) W₁ b₁`,
  `X₂ = layerR X₁ (agg X₁) W₂ b₂`.
-/
import proofs.«129248_j70411693850861_1_alg».proof.Proof.RefRun
import proofs.«129248_j70411693850861_1_alg».proof.Proof.RefTerms

set_option maxRecDepth 16384

noncomputable section

namespace Cert.ReferenceIdeal.Stages

open Cert.ReferenceIdeal Cert.ReferenceIdeal.Gen Cert.ReferenceIdeal.Fold Cert.ReferenceIdeal.Terms
open Idealize.ShloMosaic Idealize.ShloMosaic.TcCoe Idealize.SL.Sem Idealize.ShloMosaic.StableHlo

variable (U : Valuation τ sig (Elt Ideal))

/-- Contents carried to a buffer's own type and back are unchanged. -/
theorem ofBuf_toBuf {T : BufTy} (x : TRef sig T) (v : T.Contents (Elt Ideal)) : x.ofBuf (x.toBuf v) = v := by
  obtain ⟨r, h, _, _⟩ := x
  subst h
  rfl

/-! ## The first stretch -/

theorem A_v22 : after opsA U (Proc.devRef .tc main_v22)
    = layerR (U (Proc.devRef .tc main_arg0)) (Cert.Gin.agg (U (Proc.devRef .tc main_arg0)) (U (Proc.devRef .tc main_arg1)) (U (Proc.devRef .tc main_arg2))) (U (Proc.devRef .tc main_arg3)) (U (Proc.devRef .tc main_arg4)) := by
  after_results_simp <;> rfl
theorem A_v1 : after opsA U (Proc.devRef .tc main_v1) = srcOf (U (Proc.devRef .tc main_arg1)) := by
  after_results_simp <;> rfl
theorem A_v3 : after opsA U (Proc.devRef .tc main_v3) = dstOf (U (Proc.devRef .tc main_arg1)) := by
  after_results_simp <;> rfl
theorem A_arg2 : after opsA U (Proc.devRef .tc main_arg2) = U (Proc.devRef .tc main_arg2) := by
  after_results_simp <;> rfl
theorem A_arg5 : after opsA U (Proc.devRef .tc main_arg5) = U (Proc.devRef .tc main_arg5) := by
  after_results_simp <;> rfl
theorem A_arg6 : after opsA U (Proc.devRef .tc main_arg6) = U (Proc.devRef .tc main_arg6) := by
  after_results_simp <;> rfl
theorem A_arg7 : after opsA U (Proc.devRef .tc main_arg7) = U (Proc.devRef .tc main_arg7) := by
  after_results_simp <;> rfl
theorem A_arg8 : after opsA U (Proc.devRef .tc main_arg8) = U (Proc.devRef .tc main_arg8) := by
  after_results_simp <;> rfl

/-! ## The second stretch -/

theorem B_v41 : after opsB U (Proc.devRef .tc main_v41)
    = layerR (U (Proc.devRef .tc main_v22)) (aggSD (U (Proc.devRef .tc main_v22)) (U (Proc.devRef .tc main_v1)) (U (Proc.devRef .tc main_v3)) (U (Proc.devRef .tc main_arg2))) (U (Proc.devRef .tc main_arg5)) (U (Proc.devRef .tc main_arg6)) := by
  after_results_simp <;> rfl
theorem B_v22 : after opsB U (Proc.devRef .tc main_v22) = U (Proc.devRef .tc main_v22) := by
  after_results_simp <;> rfl
theorem B_arg7 : after opsB U (Proc.devRef .tc main_arg7) = U (Proc.devRef .tc main_arg7) := by
  after_results_simp <;> rfl
theorem B_arg8 : after opsB U (Proc.devRef .tc main_arg8) = U (Proc.devRef .tc main_arg8) := by
  after_results_simp <;> rfl

/-! ## The third stretch -/

theorem C_v47 : after opsC U (Proc.devRef .tc main_v47)
    = headR (U (Proc.devRef .tc main_v22)) (U (Proc.devRef .tc main_v41)) (U (Proc.devRef .tc main_arg7)) (U (Proc.devRef .tc main_arg8)) := by
  after_results_simp
  simp only [ofBuf_toBuf]
  rfl

/-! ## The whole line -/

/-- The first layer's output on the host, as a function of the arguments. -/
def X1 (x : FVec Ideal S100000x128 .f32) (ei : IVec S2x1600000 32) (ew : FVec Ideal S1600000 .f32)
    (W1 : FVec Ideal S128x128 .f32) (b1 : FVec Ideal S128 .f32) : FVec Ideal S100000x128 .f32 :=
  layerR x (Cert.Gin.agg x ei ew) W1 b1

/-- The second layer's output on the host, as a function of the first's. -/
def X2 (y : FVec Ideal S100000x128 .f32) (ei : IVec S2x1600000 32) (ew : FVec Ideal S1600000 .f32)
    (W2 : FVec Ideal S128x128 .f32) (b2 : FVec Ideal S128 .f32) : FVec Ideal S100000x128 .f32 :=
  layerR y (Cert.Gin.agg y ei ew) W2 b2

theorem fold_eq : after ops U (Proc.devRef .tc main_v47)
    = headR (X1 (U (Proc.devRef .tc main_arg0)) (U (Proc.devRef .tc main_arg1)) (U (Proc.devRef .tc main_arg2)) (U (Proc.devRef .tc main_arg3)) (U (Proc.devRef .tc main_arg4)))
        (X2 (X1 (U (Proc.devRef .tc main_arg0)) (U (Proc.devRef .tc main_arg1)) (U (Proc.devRef .tc main_arg2)) (U (Proc.devRef .tc main_arg3)) (U (Proc.devRef .tc main_arg4)))
          (U (Proc.devRef .tc main_arg1)) (U (Proc.devRef .tc main_arg2)) (U (Proc.devRef .tc main_arg5)) (U (Proc.devRef .tc main_arg6)))
        (U (Proc.devRef .tc main_arg7)) (U (Proc.devRef .tc main_arg8)) := by
  rw [ops_split, after_append, after_append, C_v47, B_v41, B_v22, B_arg7, B_arg8,
    A_v22, A_v1, A_v3, A_arg2, A_arg5, A_arg6, A_arg7, A_arg8, ← agg_eq]
  rfl

end Cert.ReferenceIdeal.Stages

end
-- ==== Proof.LibHostOps.lean ====
/-
  Host operations on matrices read at an entry written by coordinates.

  • A vector `[b]` made a one-row matrix and broadcast over `a` rows reads, at `(p, q)`, the vector at `q`.
  • A vector `[a]` made a one-column matrix and broadcast over `b` columns reads, at `(p, c)`, the vector at `p`.
  • A scalar broadcast to any shape reads the scalar everywhere.
  • Two matrices joined along their columns read, left of the seam, the first, and right of it the second.
  • The host's sum over the columns of a matrix, read at row `p`, is the initial value plus the sum of that row.
  • The host's logarithm and exponential read elementwise.
  • A sum over `a + b` indices is the sum over the first `a` plus the sum over the last `b`.
-/
import Idealize.ShloMosaic.Lib.Pipeline.Value
import Idealize.ShloMosaic.Lib.ValueIdx
import Idealize.ShloMosaic.PureOps.Ideal.Laws

namespace Cert.HostOps

open Idealize.ShloMosaic Idealize.ShloMosaic.ValueIdx
open scoped BigOperators

variable {α : Type}

/-- A scalar broadcast to any shape reads the scalar at every index. -/
theorem bcast_scalar {t : Shape} (dims : Fin (⟨0, ![]⟩ : Shape).rank → Fin t.rank)
    (h : (⟨0, ![]⟩ : Shape).BroadcastsInDim t dims) (x : (⟨0, ![]⟩ : Shape).Idx → α) (j : t.Idx) :
    broadcastInDim t dims h x j = x ix0 :=
  broadcastInDim_apply dims h x j ix0 (fun a => a.elim0)

/-- A vector as a one-row matrix. -/
theorem bcast_vec_row {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A one-row matrix broadcast over the rows. -/
theorem bcast_row_rows {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

/-- A vector as a one-column matrix. -/
theorem bcast_vec_col {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A one-column matrix broadcast over the columns. -/
theorem bcast_col_cols {a b : ℕ} (x : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h x (ix2 p c) = x (ix2 p (0 : Fin 1)) := by
  refine broadcastInDim_apply _ h x (ix2 p c) (ix2 p (0 : Fin 1)) fun ax => ?_
  match ax with
  | ⟨0, _⟩ =>
    show p.val = if a = 1 then 0 else p.val
    split
    · have := p.isLt; omega
    · rfl
  | ⟨1, _⟩ => rfl

/-- Left of the seam a column-wise join reads its first piece. -/
theorem concat_cols_left {n a b c : ℕ} (u : (⟨2, ![n, a]⟩ : Shape).Idx → α) (v : (⟨2, ![n, b]⟩ : Shape).Idx → α)
    (h : Shape.Concatenates [⟨2, ![n, a]⟩, ⟨2, ![n, b]⟩] ⟨2, ![n, c]⟩ 1) (p : Fin n) (k : Fin a) (j : Fin c)
    (hj : j.val = k.val) :
    concatenate ⟨2, ![n, c]⟩ 1 [⟨⟨2, ![n, a]⟩, u⟩, ⟨⟨2, ![n, b]⟩, v⟩] h (ix2 p j) = u (ix2 p k) :=
  concatenate_pair_apply_left 1 u v h (ix2 p j) rfl (ix2 p k) (fun ax => by
    match ax with
    | ⟨0, _⟩ => rfl
    | ⟨1, _⟩ => exact hj.symm)

/-- Right of the seam it reads its second piece, the first piece's width taken off the column. -/
theorem concat_cols_right {n a b c : ℕ} (u : (⟨2, ![n, a]⟩ : Shape).Idx → α) (v : (⟨2, ![n, b]⟩ : Shape).Idx → α)
    (h : Shape.Concatenates [⟨2, ![n, a]⟩, ⟨2, ![n, b]⟩] ⟨2, ![n, c]⟩ 1) (p : Fin n) (k : Fin b) (j : Fin c)
    (hj : j.val = a + k.val) :
    concatenate ⟨2, ![n, c]⟩ 1 [⟨⟨2, ![n, a]⟩, u⟩, ⟨⟨2, ![n, b]⟩, v⟩] h (ix2 p j) = v (ix2 p k) :=
  concatenate_pair_apply_right 1 u v h (ix2 p j) rfl rfl (ix2 p k) (fun ax hne => by
    match ax with
    | ⟨0, _⟩ => rfl
    | ⟨1, _⟩ => exact absurd rfl hne) (by
    show k.val + a = j.val
    omega)

/-- The host's sum over the columns, at a row. -/
theorem hostReduceAdd_rows {a b : ℕ} {φ : FTy} (x : FVec Ideal ⟨2, ![a, b]⟩ φ) (init : FVec Ideal ⟨0, ![]⟩ φ)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (p : Fin a) :
    Host.reduceAdd (F := Ideal) x init h' hu (ix1 p) = init ix0 + ∑ k : Fin b, x (ix2 p k) := by
  simp only [Host.reduceAdd, Ideal.hostReduceAdd_def]
  rw [Ideal.hostReduceAdd_single h' h, eq_ix0 (Shape.Idx.first hu)]
  refine congrArg (_ + ·) (Finset.sum_congr rfl fun k _ => ?_)
  exact congrArg x (funext fun ax => Fin.ext (by match ax with | ⟨0, _⟩ => rfl | ⟨1, _⟩ => rfl))

/-- The host's logarithm and exponential, at an index, are the extended reals'. -/
theorem hostLog_apply {s : Shape} {φ : FTy} (x : FVec Ideal s φ) (i : s.Idx) :
    Host.log (F := Ideal) x i = Ideal.log (x i) := rfl
theorem hostExp_apply {s : Shape} {φ : FTy} (x : FVec Ideal s φ) (i : s.Idx) :
    Host.exp (F := Ideal) x i = Ideal.exp (x i) := rfl

/-- A sum over `a + b` indices splits at `a`. -/
theorem sum_split {M : Type} [AddCommMonoid M] (a b : ℕ) (f : Fin (a + b) → M) :
    ∑ k, f k = ∑ k : Fin a, f (Fin.castAdd b k) + ∑ k : Fin b, f (Fin.natAdd a k) :=
  Fin.sum_univ_add f

end Cert.HostOps
-- ==== Proof.RefIndex.lean ====
/-
  The reference's whole-array functions, index by index, are the specification's.

  • A layer on the host is the specification's layer once the bias vector is read as a one-row matrix: the host's
    product at `(p, q)` is the sum over `k` of `(h + a) (p, k) · W (k, q)`, the bias is broadcast over the rows, and
    the clamp is the same `max` with the same zero word.
  • The head on the host is the specification's head once the classifier's matrix is read as its two halves: the
    joined features against the whole matrix is a sum over 256 indices, which splits at 128 into the first layer's
    features against rows 0–127 plus the second layer's against rows 128–255 (sums on the extended reals split
    freely: only commutativity and associativity of addition are used).  The reference joins the row maximum once more with
    −∞, which changes nothing (the fold starts from −∞ already); its row sum starts from the zero word, which adds
    nothing.
-/
import proofs.«129248_j70411693850861_1_alg».proof.Proof.RefTerms
import proofs.«129248_j70411693850861_1_alg».proof.Proof.Spec
import proofs.«129248_j70411693850861_1_alg».proof.Proof.LibRowOps
import proofs.«129248_j70411693850861_1_alg».proof.Proof.LibHostOps

noncomputable section

namespace Cert.ReferenceIdeal.Index

open Cert.ReferenceIdeal Cert.ReferenceIdeal.Gen Cert.ReferenceIdeal.Terms
open Idealize.ShloMosaic Idealize.ShloMosaic.TcCoe Idealize.ShloMosaic.ValueIdx
open scoped BigOperators

/-! ## The two products' dimension numbers: which operand coordinate is which -/

abbrev DL := dot_S100000x128_S128x128_S100000x128_1_0_0_1_n_n
abbrev DH := dot_S100000x256_S256x40_S100000x40_1_0_0_1_n_n

theorem DL_l0 (i : S100000x128.Idx) (q : DL.contr.Idx) : (DL.lhsIdx i q 0).val = (i 0).val := by
  unfold DotDims.lhsIdx
  rw [dif_neg (show ¬(0 : Fin S100000x128.rank) ∈ DL.lhsBatch by decide), dif_pos (show (0 : Fin S100000x128.rank) ∈ DL.lhsNonContracting by decide)]
  rfl
theorem DL_l1 (i : S100000x128.Idx) (q : DL.contr.Idx) : (DL.lhsIdx i q 1).val = (q ⟨0, by decide⟩).val :=
  DL.lhsIdx_val_of_single rfl i q
theorem DL_r0 (i : S100000x128.Idx) (q : DL.contr.Idx) : (DL.rhsIdx i q 0).val = (q ⟨0, by decide⟩).val :=
  DL.rhsIdx_val_of_single rfl i q
theorem DL_r1 (i : S100000x128.Idx) (q : DL.contr.Idx) : (DL.rhsIdx i q 1).val = (i 1).val := by
  unfold DotDims.rhsIdx
  rw [dif_neg (show ¬(1 : Fin S128x128.rank) ∈ DL.rhsBatch by decide), dif_pos (show (1 : Fin S128x128.rank) ∈ DL.rhsNonContracting by decide)]
  rfl

theorem DH_l0 (i : S100000x40.Idx) (q : DH.contr.Idx) : (DH.lhsIdx i q 0).val = (i 0).val := by
  unfold DotDims.lhsIdx
  rw [dif_neg (show ¬(0 : Fin S100000x256.rank) ∈ DH.lhsBatch by decide), dif_pos (show (0 : Fin S100000x256.rank) ∈ DH.lhsNonContracting by decide)]
  rfl
theorem DH_l1 (i : S100000x40.Idx) (q : DH.contr.Idx) : (DH.lhsIdx i q 1).val = (q ⟨0, by decide⟩).val :=
  DH.lhsIdx_val_of_single rfl i q
theorem DH_r0 (i : S100000x40.Idx) (q : DH.contr.Idx) : (DH.rhsIdx i q 0).val = (q ⟨0, by decide⟩).val :=
  DH.rhsIdx_val_of_single rfl i q
theorem DH_r1 (i : S100000x40.Idx) (q : DH.contr.Idx) : (DH.rhsIdx i q 1).val = (i 1).val := by
  unfold DotDims.rhsIdx
  rw [dif_neg (show ¬(1 : Fin S256x40.rank) ∈ DH.rhsBatch by decide), dif_pos (show (1 : Fin S256x40.rank) ∈ DH.rhsNonContracting by decide)]
  rfl

/-! ## A layer -/

/-- The host's layer is the specification's, the bias read as any one-row matrix holding it. -/
theorem layerR_eq (h a : FVec Ideal S100000x128 .f32) (W : FVec Ideal S128x128 .f32) (b : FVec Ideal S128 .f32)
    (b2 : FVec Ideal S1x128 .f32) (hb : ∀ q : Fin 128, b2 (ix2 (0 : Fin 1) q) = b (ix1 q)) :
    layerR h a W b = Cert.Gin.layer h a W b2 := by
  funext i
  obtain ⟨p, q, rfl⟩ : ∃ (p : Fin 100000) (q : Fin 128), i = ix2 p q := ⟨i 0, i 1, eq_ix2 i⟩
  show _ = Cert.Gin.layerAt h a W b2 p q
  unfold layerR Cert.Gin.layerAt
  refine congrArg₂ max (congrArg₂ (· + ·) ?_ ?_) ?_
  · exact Cert.RowOps.dotGeneral_entry DL rfl rfl DL_l0 DL_l1 DL_r0 DL_r1 none (addf h a) W p q
  · exact ((Cert.HostOps.bcast_row_rows _ _ p q).trans (Cert.HostOps.bcast_vec_row b _ 0 q)).trans (hb q).symm
  · exact Cert.HostOps.bcast_scalar _ _ _ (ix2 p q)

/-! ## The head -/

/-- A logit on the host: the joined features against the whole matrix split at the seam. -/
theorem logitsR_apply (u v : FVec Ideal S100000x128 .f32) (M : FVec Ideal S256x40 .f32) (b : FVec Ideal S40 .f32)
    (A B : FVec Ideal ⟨2, ![128, 40]⟩ .f32) (b2 : FVec Ideal S1x40 .f32)
    (hA : ∀ (k : Fin 128) (j : Fin 40), A (ix2 k j) = M (ix2 (Fin.castAdd 128 k : Fin 256) j))
    (hB : ∀ (k : Fin 128) (j : Fin 40), B (ix2 k j) = M (ix2 (Fin.natAdd 128 k : Fin 256) j))
    (hb : ∀ j : Fin 40, b2 (ix2 (0 : Fin 1) j) = b (ix1 j)) (p : Fin 100000) (j : Fin 40) :
    logitsR u v M b (ix2 p j) = Cert.Gin.logitAt u v A B b2 p j := by
  unfold logitsR Cert.Gin.logitAt
  refine congrArg₂ (· + ·) ?_ ?_
  · refine (Cert.RowOps.dotGeneral_entry DH rfl rfl DH_l0 DH_l1 DH_r0 DH_r1 none _ M p j).trans ?_
    refine (Cert.HostOps.sum_split 128 128 _).trans ?_
    refine congrArg₂ (· + ·) (Finset.sum_congr rfl fun k _ => ?_) (Finset.sum_congr rfl fun k _ => ?_)
    · rw [hA k j, Cert.HostOps.concat_cols_left u v _ p k (Fin.castAdd 128 k) rfl]
    · rw [hB k j, Cert.HostOps.concat_cols_right u v _ p k (Fin.natAdd 128 k) rfl]
  · exact ((Cert.HostOps.bcast_row_rows _ _ p j).trans (Cert.HostOps.bcast_vec_row b _ 0 j)).trans (hb j).symm

/-- The row maximum on the host is the fold of `max` over the row from −∞: joining it once more with −∞ changes nothing. -/
theorem rowMaxR_apply (z : FVec Ideal S100000x40 .f32) (p : Fin 100000) :
    rowMaxR z (ix1 p) = Cert.Gin.rowMax (fun j => z (ix2 p j)) :=
  (maximumf_apply _ _ (ix1 p)).trans
    ((congrArg₂ max (Cert.HostOps.bcast_scalar _ _ _ (ix1 p))
        (Cert.RowOps.hostReduce_max_rows z _ _ (by decide) _ p)).trans
      (max_eq_right ((Finset.le_fold_max _).mpr (Or.inl le_rfl))))

/-- The shifted logits at an entry. -/
theorem shiftR_apply (z : FVec Ideal S100000x40 .f32) (p : Fin 100000) (c : Fin 40) :
    shiftR z (ix2 p c) = z (ix2 p c) - Cert.Gin.rowMax (fun j => z (ix2 p j)) := by
  unfold shiftR
  rw [subf_apply]
  refine congrArg (z (ix2 p c) - ·) ?_
  exact ((Cert.HostOps.bcast_col_cols _ _ p c).trans (Cert.HostOps.bcast_vec_col _ _ p 0)).trans (rowMaxR_apply z p)

/-- The reference's log-softmax at an entry is the specification's. -/
theorem normR_apply (z : FVec Ideal S100000x40 .f32) (p : Fin 100000) (c : Fin 40) :
    normR z (ix2 p c) = Cert.Gin.logSoftmaxAt (fun j => z (ix2 p j)) c := by
  unfold normR Cert.Gin.logSoftmaxAt
  rw [subf_apply]
  refine congrArg₂ (· - ·) (shiftR_apply z p c) ?_
  refine (Cert.HostOps.bcast_col_cols _ _ p c).trans ?_
  refine (Cert.HostOps.hostLog_apply _ _).trans (congrArg Ideal.log ?_)
  refine (Cert.HostOps.bcast_vec_col _ _ p 0).trans ?_
  refine (Cert.HostOps.hostReduceAdd_rows _ _ _ (by decide) _ p).trans ?_
  rw [constant_apply, Ideal.ofBits_zero_f32, zero_add]
  refine Finset.sum_congr rfl fun j _ => ?_
  exact (Cert.HostOps.hostExp_apply _ _).trans (congrArg Ideal.exp (shiftR_apply z p j))

/-- The host's head is the specification's, the classifier's matrix read as its two halves and the bias as a
    one-row matrix. -/
theorem headR_eq (u v : FVec Ideal S100000x128 .f32) (M : FVec Ideal S256x40 .f32) (b : FVec Ideal S40 .f32)
    (A B : FVec Ideal ⟨2, ![128, 40]⟩ .f32) (b2 : FVec Ideal S1x40 .f32)
    (hA : ∀ (k : Fin 128) (j : Fin 40), A (ix2 k j) = M (ix2 (Fin.castAdd 128 k : Fin 256) j))
    (hB : ∀ (k : Fin 128) (j : Fin 40), B (ix2 k j) = M (ix2 (Fin.natAdd 128 k : Fin 256) j))
    (hb : ∀ j : Fin 40, b2 (ix2 (0 : Fin 1) j) = b (ix1 j)) :
    headR u v M b = Cert.Gin.head u v A B b2 := by
  funext i
  obtain ⟨p, c, rfl⟩ : ∃ (p : Fin 100000) (c : Fin 40), i = ix2 p c := ⟨i 0, i 1, eq_ix2 i⟩
  show normR (logitsR u v M b) (ix2 p c) = Cert.Gin.logSoftmaxAt (fun j => Cert.Gin.logitAt u v A B b2 p j) c
  rw [normR_apply]
  exact congrArg (Cert.Gin.logSoftmaxAt · c) (funext fun j => logitsR_apply u v M b A B b2 hA hB hb p j)

end Cert.ReferenceIdeal.Index

end
-- ==== Proof.RefValue.lean ====
/-
  The idealized reference's result buffer is the network of the argument arrays.

  The fold of the reference's line is `headR X₁ X₂ M b` (evaluated stretch by stretch); a host layer is the
  specification's layer with the bias vector read as a one-row matrix, and the host head is the specification's
  head with the classifier's matrix read as its two halves.  The one-row matrices and the halves are taken in the
  very form the kernel's host side makes them (a reshape, two row slices), so that both programs end at the same
  term: a reshaped vector reads, at `(0, q)`, the vector at `q`; rows `0–127` and `128–255` of the matrix are the
  two slices.
-/
import proofs.«129248_j70411693850861_1_alg».proof.Proof.RefStages
import proofs.«129248_j70411693850861_1_alg».proof.Proof.RefIndex
import proofs.«129248_j70411693850861_1_alg».proof.Proof.Net
import proofs.«129248_j70411693850861_1_alg».proof.Proof.Gen.KernelIdeal
import Idealize.ShloMosaic.Lib.ValueLayout

set_option maxRecDepth 16384

noncomputable section

namespace Cert.ReferenceIdeal.ValueH

open Cert.ReferenceIdeal Cert.ReferenceIdeal.Gen Cert.ReferenceIdeal.Fold Cert.ReferenceIdeal.Terms
open Idealize.ShloMosaic Idealize.ShloMosaic.TcCoe Idealize.ShloMosaic.ValueIdx Idealize.SL.Sem Idealize.ShloMosaic.StableHlo

/-- The host's composed term is the network, for any one-row forms of the biases and any two halves of the matrix. -/
theorem net_eq (x : FVec Ideal S100000x128 .f32) (ei : IVec S2x1600000 32) (ew : FVec Ideal S1600000 .f32)
    (W1 : FVec Ideal S128x128 .f32) (b1 : FVec Ideal S128 .f32) (W2 : FVec Ideal S128x128 .f32) (b2 : FVec Ideal S128 .f32)
    (M : FVec Ideal S256x40 .f32) (b : FVec Ideal S40 .f32)
    (b1r b2r : FVec Ideal S1x128 .f32) (A B : FVec Ideal ⟨2, ![128, 40]⟩ .f32) (br : FVec Ideal S1x40 .f32)
    (h1 : ∀ q : Fin 128, b1r (ix2 (0 : Fin 1) q) = b1 (ix1 q)) (h2 : ∀ q : Fin 128, b2r (ix2 (0 : Fin 1) q) = b2 (ix1 q))
    (hA : ∀ (k : Fin 128) (j : Fin 40), A (ix2 k j) = M (ix2 (Fin.castAdd 128 k : Fin 256) j))
    (hB : ∀ (k : Fin 128) (j : Fin 40), B (ix2 k j) = M (ix2 (Fin.natAdd 128 k : Fin 256) j))
    (hb : ∀ j : Fin 40, br (ix2 (0 : Fin 1) j) = b (ix1 j)) :
    headR (Cert.ReferenceIdeal.Stages.X1 x ei ew W1 b1)
        (Cert.ReferenceIdeal.Stages.X2 (Cert.ReferenceIdeal.Stages.X1 x ei ew W1 b1) ei ew W2 b2) M b
      = Cert.Gin.net x ei ew W1 b1r W2 b2r A B br := by
  unfold Cert.ReferenceIdeal.Stages.X1 Cert.ReferenceIdeal.Stages.X2 Cert.Gin.net Cert.Gin.out1
  rw [Cert.ReferenceIdeal.Index.layerR_eq x _ W1 b1 b1r h1, Cert.ReferenceIdeal.Index.layerR_eq _ _ W2 b2 b2r h2]
  exact Cert.ReferenceIdeal.Index.headR_eq _ _ M b A B br hA hB hb

variable (m : (ℓ : Loc nD τ sig) → Buf (Elt Ideal) ℓ)

/-- The result buffer's contents after the line: the network of the arguments, in the kernel's spelling of the
    one-row biases and the matrix halves. -/
theorem result_eq (c : Dev nD) :
    after ops (launchContents m c) (Proc.devRef .tc main_v47)
      = Cert.Gin.net (m ((c.tc : Thread nD τ).loc main_arg0)) (m ((c.tc : Thread nD τ).loc main_arg1)) (m ((c.tc : Thread nD τ).loc main_arg2)) (m ((c.tc : Thread nD τ).loc main_arg3))
          (shapeCast S1x128 (m ((c.tc : Thread nD τ).loc main_arg4)) Cert.KernelIdeal.Gen.shapeCasts_S128_S1x128) (m ((c.tc : Thread nD τ).loc main_arg5))
          (shapeCast S1x128 (m ((c.tc : Thread nD τ).loc main_arg6)) Cert.KernelIdeal.Gen.shapeCasts_S128_S1x128)
          (extractStridedSlice ⟨2, ![128, 40]⟩ ![0, 0] (m ((c.tc : Thread nD τ).loc main_arg7)) Cert.KernelIdeal.Gen.slices_S256x40_S128x40_0_0)
          (extractStridedSlice ⟨2, ![128, 40]⟩ ![128, 0] (m ((c.tc : Thread nD τ).loc main_arg7)) Cert.KernelIdeal.Gen.slices_S256x40_S128x40_128_0)
          (shapeCast S1x40 (m ((c.tc : Thread nD τ).loc main_arg8)) Cert.KernelIdeal.Gen.shapeCasts_S40_S1x40) := by
  rw [Cert.ReferenceIdeal.Stages.fold_eq]
  refine net_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) _ _ _ _ _ ?_ ?_ ?_ ?_ ?_
  · exact fun q => shapeCast_a_1a_apply _ _ 0 q
  · exact fun q => shapeCast_a_1a_apply _ _ 0 q
  · exact fun k j => slice2_axis0_apply 0 _ _ k j (Fin.castAdd 128 k) (by show k.val = 0 + k.val; omega)
  · exact fun k j => slice2_axis0_apply 128 _ _ k j (Fin.natAdd 128 k) (by show 128 + k.val = 128 + k.val; rfl)
  · exact fun j => shapeCast_a_1a_apply _ _ 0 j

end Cert.ReferenceIdeal.ValueH

end
-- ==== Proof.lean ====
/-
  Two graph-convolution layers and a classifier head, as a tiled kernel program and as a plain host program, are
  one function on the extended reals.

  Both programs aggregate node features over the weighted edges on the host with the same operations.  The kernel
  program computes each layer `max ((h + agg h) · W + b, 0)` in 25 row blocks of 4000 nodes, rounding to bf16 on the
  way into the product (the identity here), and the head in the same blocks as two products, one per layer's
  output against its half of the classifier's matrix.  The reference computes each layer as one product over all
  nodes and the head as one product of the joined outputs against the whole matrix.  A row of a layer or of the
  head depends only on the same row of its inputs, so the blocks are restrictions of the whole-array functions;
  the sum over the 256 joined features splits into the two sums over 128; the two log-softmaxes are the same
  formula.  Finiteness of the inputs is never needed: only commutativity and associativity of addition are used.
  The ideal pass rewrote nothing, so the kernel's idealization is its own text read on the extended reals.
-/
import proofs.«129248_j70411693850861_1_alg».proof.Defs
import proofs.«129248_j70411693850861_1_alg».proof.Proof.Gen.Kernel
import proofs.«129248_j70411693850861_1_alg».proof.Proof.Gen.Kernel.Skeleton
import proofs.«129248_j70411693850861_1_alg».proof.Proof.Gen.Kernel.Launch
import proofs.«129248_j70411693850861_1_alg».proof.Proof.Gen.Kernel.Points
import proofs.«129248_j70411693850861_1_alg».proof.Proof.Gen.Kernel.Frame
import proofs.«129248_j70411693850861_1_alg».proof.Proof.Gen.KernelIdeal
import proofs.«129248_j70411693850861_1_alg».proof.Proof.Gen.KernelIdeal.Skeleton
import proofs.«129248_j70411693850861_1_alg».proof.Proof.Gen.KernelIdeal.Launch
import proofs.«129248_j70411693850861_1_alg».proof.Proof.Gen.KernelIdeal.Points
import proofs.«129248_j70411693850861_1_alg».proof.Proof.Gen.KernelIdeal.Frame
import proofs.«129248_j70411693850861_1_alg».proof.Proof.Gen.ReferenceIdeal
import proofs.«129248_j70411693850861_1_alg».proof.Proof.Gen.Pre_finite_inputs
import proofs.«129248_j70411693850861_1_alg».proof.Proof.KernelValue
import proofs.«129248_j70411693850861_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Fold.run (F := Ideal) m ρ)

/-- From memories agreeing on the arguments both idealized programs end with the result array at the network of
    the arguments. -/
theorem algebraic : Cert.algebraic_KernelIdeal_ReferenceIdeal := by
  intro m ρ m' ρ' _ hagree
  refine ⟨_, Cert.KernelIdeal.ValueH.run m ρ, ?_⟩
  refine (θ_run Cert.ReferenceIdeal.defs _ _).mono (fun _ h c => ⟨(h c).1.trans ?_, (h c).2⟩)
    (Cert.ReferenceIdeal.Fold.run (F := Ideal) m' ρ')
  rw [Cert.ReferenceIdeal.ValueH.result_eq m' c]
  obtain ⟨e0, e1, e2, e3, e4, e5, e6, e7, e8⟩ := hagree c
  rw [e0, e1, e2, e3, e4, e5, e6, e7, e8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
